-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S600000 32) (main_arg9 : IVec S600000 32) (main_arg10 : IVec S600000 32) (main_arg11 : IVec S600000 32) (main_arg12 : IVec S600000 32) (main_arg13 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S1x128 : Shape := ⟨2, ![1, 128]⟩
abbrev S10000x128 : Shape := ⟨2, ![10000, 128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S10000x1 : Shape := ⟨2, ![10000, 1]⟩
abbrev S100000x128 : Shape := ⟨2, ![100000, 128]⟩

abbrev nBuf : Space → Nat
  | .hbm => 86
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S_, .i32⟩
  | .hbm, ⟨36, _⟩ => ⟨S50000, .i32⟩
  | .hbm, ⟨37, _⟩ => ⟨S600000x1, .i32⟩
  | .hbm, ⟨38, _⟩ => ⟨S50000, .i32⟩
  | .hbm, ⟨39, _⟩ => ⟨S50000, .f32⟩
  | .hbm, ⟨40, _⟩ => ⟨S50000x1, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S_, .i32⟩
  | .hbm, ⟨57, _⟩ => ⟨S50000, .i32⟩
  | .hbm, ⟨58, _⟩ => ⟨S600000x1, .i32⟩
  | .hbm, ⟨59, _⟩ => ⟨S50000, .i32⟩
  | .hbm, ⟨60, _⟩ => ⟨S50000, .f32⟩
  | .hbm, ⟨61, _⟩ => ⟨S50000x1, .f32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S_, .i32⟩
  | .hbm, ⟨76, _⟩ => ⟨S600000, .i32⟩
  | .hbm, ⟨77, _⟩ => ⟨S_, .i32⟩
  | .hbm, ⟨78, _⟩ => ⟨S50000, .i32⟩
  | .hbm, ⟨79, _⟩ => ⟨S600000x1, .i32⟩
  | .hbm, ⟨80, _⟩ => ⟨S50000, .i32⟩
  | .hbm, ⟨81, _⟩ => ⟨S50000, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x1, .f32⟩
  | .local _ .vmem, ⟨19, _⟩ => ⟨S10000x1, .f32⟩
  | .local _ .vmem, ⟨20, _⟩ => ⟨S10000x128, .f32⟩
  | .local _ .vmem, ⟨21, _⟩ => ⟨S10000x128, .f32⟩
  | .local _ .vmem, ⟨22, _⟩ => ⟨S10000x1, .f32⟩
  | .local _ .vmem, ⟨23, _⟩ => ⟨S10000x1, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x1, .f32⟩
  | .local _ .vmem, ⟨29, _⟩ => ⟨S10000x1, .f32⟩
  | .local _ .vmem, ⟨30, _⟩ => ⟨S10000x128, .f32⟩
  | .local _ .vmem, ⟨31, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x128_S10000x128 : S10000x128.ShapeCasts S10000x128
  broadcasts_S10000x1_S10000x128 : S10000x1.Broadcasts S10000x128
  concatenates_S50000x128_S50000x128_S100000x128_d0 : Shape.Concatenates [S50000x128, S50000x128] S100000x128 0
  dot_S10000x128_S128x128_S10000x128_1_1_0_0_n_n_wf : DotDims.WF S10000x128 S128x128 S10000x128 [1] [1] [0] [0] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S50000x1.size a
  hwx2_3 : ∀ i : grid2.Coords, EltTy.bits .f32 = 32 ∨ (Rect.block (s := S50000x1) S10000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S50000x128.size a
  hwx2_4 : ∀ i : grid2.Coords, EltTy.bits .f32 = 32 ∨ (Rect.block (s := S50000x128) S10000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S50000x1.size a
  hwx3_1 : ∀ i : grid3.Coords, EltTy.bits .f32 = 32 ∨ (Rect.block (s := S50000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S10000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v53) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S100000x128 : Shape := ⟨2, ![100000, 128]⟩

abbrev nBuf : Space → Nat
  | .hbm => 112
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S128x128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S128x128, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S_, .f32⟩
  | .hbm, ⟨43, _⟩ => ⟨S600000, .f32⟩
  | .hbm, ⟨44, _⟩ => ⟨S_, .f32⟩
  | .hbm, ⟨45, _⟩ => ⟨S50000, .f32⟩
  | .hbm, ⟨46, _⟩ => ⟨S600000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S_, .f32⟩
  | .hbm, ⟨68, _⟩ => ⟨S600000, .f32⟩
  | .hbm, ⟨69, _⟩ => ⟨S_, .f32⟩
  | .hbm, ⟨70, _⟩ => ⟨S50000, .f32⟩
  | .hbm, ⟨71, _⟩ => ⟨S600000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S600000, .i32⟩
  | .hbm, ⟨82, _⟩ => ⟨S600000, .i1⟩
  | .hbm, ⟨83, _⟩ => ⟨S_, .i32⟩
  | .hbm, ⟨84, _⟩ => ⟨S600000, .i32⟩
  | .hbm, ⟨85, _⟩ => ⟨S600000, .i32⟩
  | .hbm, ⟨86, _⟩ => ⟨S600000, .i32⟩
  | .hbm, ⟨87, _⟩ => ⟨S600000x1, .i32⟩
  | .hbm, ⟨88, _⟩ => ⟨S600000x128, .f32⟩
  | .hbm, ⟨89, _⟩ => ⟨S_, .f32⟩
  | .hbm, ⟨90, _⟩ => ⟨S50000x128, .f32⟩
  | .hbm, ⟨91, _⟩ => ⟨S600000x1, .i32⟩
  | .hbm, ⟨92, _⟩ => ⟨S50000x128, .f32⟩
  | .hbm, ⟨93, _⟩ => ⟨S_, .f32⟩
  | .hbm, ⟨94, _⟩ => ⟨S600000, .f32⟩
  | .hbm, ⟨95, _⟩ => ⟨S_, .f32⟩
  | .hbm, ⟨96, _⟩ => ⟨S50000, .f32⟩
  | .hbm, ⟨97, _⟩ => ⟨S600000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S50000x128, .f32⟩
  | .hbm, ⟨110, _⟩ => ⟨S50000x128, .f32⟩
  | .hbm, ⟨111, _⟩ => ⟨S100000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call0_cst : Ref sig .tc := ⟨.hbm, 105, rfl⟩
abbrev main_call0_v0 : Ref sig .tc := ⟨.hbm, 106, rfl⟩
abbrev main_v73 : Ref sig .tc := ⟨.hbm, 107, rfl⟩
abbrev main_call1_cst : Ref sig .tc := ⟨.hbm, 108, rfl⟩
abbrev main_call1_v0 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S100000x128_d0 : Shape.Concatenates [S50000x128, S50000x128] S100000x128 0
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf

class Facts : Prop extends Facts₀ where

variable [Facts]
-- ==== Proof.KernelRun.lean ====
/-
  The idealized kernel program, run from any launch memory: every weakly fair execution ends, nothing faults, the
  argument arrays end as launched, and the result array ends holding what the last boundary of the program's fold
  holds there.

  The program is three stretches of array operations around four grid-launched kernels.  The buffer contents at each
  boundary are a fold from the launch memory: a stretch of array operations rewrites the buffers it writes, a kernel
  launch rewrites its output arrays with what its grid points write back.  The run is assembled from the segments of
  that fold; the contents of every unscoped buffer at the end are the last boundary's, and the result array is one of
  those buffers.
-/
import proofs.«123112_j18691697672931_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's implicit arguments are found by unifying its conclusion with this statement, which takes unfolding plain
-- definitions in a metavariable's type
set_option backward.isDefEq.respectTransparency.types false in
/-- The run, with the result named: the result array ends at the last boundary's contents of its buffer, and every
    argument array ends as launched. -/
theorem run_result : θ_run defs (onTc (τ := τ) (main (F := F))) ⟨m, fun _ => 0, ρ⟩ (fun r => ∀ c : Dev nD,
      r.2.mem ((c.tc : Thread nD τ).loc main_v55) = W7 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v55 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.RunValue

end
-- ==== Proof.LibTransposedDot.lean ====
/-
  A matrix product whose right operand is contracted on its last axis, read at an index, at the ideal instance.

  For the dimension numbers of an `M × K` by `N × K` product (rows against rows: both operands contracted on their
  second axis) a kernel's matrix product into a zero accumulator is, at the output index `(r, c)`, the sum over
  `k : Fin K` of `lhs (r, k) * rhs (c, k)`. Imports only the library.
-/
import Idealize.ShloMosaic.PureOps.Ideal.Laws
import Idealize.ShloMosaic.Lib.ValueIdx

noncomputable section

namespace Cert.LibTransposedDot

open Idealize.ShloMosaic Idealize.ShloMosaic.ValueIdx

section TransposedRhs
variable {M K N : Nat} {φ₁ φ₂ : FTy}

theorem tr_lhsIdx (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl j _).trans hk

theorem tr_rhsIdx (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl j _).trans hk

/-- Rows against rows: the entry (r, c) is the sum over the shared width of the products. -/
theorem tr_matmul_apply (prec : Option ContractPrecision) (lhs : FVec Ideal ⟨2, ![M, K]⟩ φ₁) (rhs : FVec Ideal ⟨2, ![N, K]⟩ φ₂)
    (j : (⟨2, ![M, N]⟩ : Shape).Idx) :
    FloatOps.matmul (DotDims.transposedRhs M K N) prec lhs rhs (constant ⟨2, ![M, N]⟩ .f32 0x00000000#32) j
      = ∑ k : Fin K, lhs (ix2 (j 0) k) * rhs (ix2 (j 1) k) := by
  rw [Ideal.matmul_constant_zero_apply, ← Equiv.sum_comp (contrEquiv1 (DotDims.transposedRhs M K N) K rfl rfl).symm]
  exact Finset.sum_congr rfl fun k _ => by rw [tr_lhsIdx, tr_rhsIdx]; rfl

end TransposedRhs

end Cert.LibTransposedDot

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.Rows.lean ====
/-
  Row-wise layers on arrays of 128-wide rows, over the extended reals, and their restriction to a block of rows.

  * `affineRows x W b`: row `r` of `x` against every row of `W` (the product with the transpose of `W`), plus the
    bias row `b`: entry `(r, c)` is `∑ k, x (r, k) * W (c, k) + b (0, c)`.
  * `meanTwo m₁ d₁ m₂ d₂`: entry `(r, c)` is `max (m₁ (r, c) / max (d₁ r) 1 + m₂ (r, c) / max (d₂ r) 1) 0`, the degrees kept
    as columns; `meanOne m d` is the same with one summand.
  * `rowBlock t X`: the block of `h` consecutive rows of `X` starting at row `t * h`.
  Each layer computes a row of its result from the same row of its row-indexed operands, so it commutes with taking
  a block of rows.  The layers are also spelt with the vector operations a kernel body uses.
-/
import Idealize.ShloMosaic.Lib.ValueIdx
import Idealize.ShloMosaic.Lib.ValueLayout
import Idealize.ShloMosaic.Lib.Pipeline.Value
import Idealize.ShloMosaic.PureOps.Ideal.Laws
import proofs.«123112_j18691697672931_2_alg».proof.Proof.LibTransposedDot
import proofs.«123112_j18691697672931_2_alg».proof.Proof.LibColumnBroadcast

noncomputable section

open scoped BigOperators

namespace Cert.Rows

open Idealize.ShloMosaic Idealize.ShloMosaic.ValueIdx

/-- The word of the float one and of the float zero, read over the extended reals. -/
abbrev oneE : EReal := Ideal.ofBits .f32 0x3F800000#32
abbrev zeroE : EReal := Ideal.ofBits .f32 0x00000000#32

/-- Rows of `x` against rows of `W`, plus the bias row. -/
def affineRows {R : ℕ} (x : (⟨2, ![R, 128]⟩ : Shape).Idx → EReal) (W : (⟨2, ![128, 128]⟩ : Shape).Idx → EReal)
    (b : (⟨2, ![1, 128]⟩ : Shape).Idx → EReal) : (⟨2, ![R, 128]⟩ : Shape).Idx → EReal :=
  fun i => (∑ k : Fin 128, x (ix2 (i 0) k) * W (ix2 (i 1) k)) + b (ix2 (0 : Fin 1) (i 1))

/-- Two sums of neighbours, each divided by its degree (at least one), added, and cut off below at zero. -/
def meanTwo {R : ℕ} (m₁ : (⟨2, ![R, 128]⟩ : Shape).Idx → EReal) (d₁ : (⟨2, ![R, 1]⟩ : Shape).Idx → EReal)
    (m₂ : (⟨2, ![R, 128]⟩ : Shape).Idx → EReal) (d₂ : (⟨2, ![R, 1]⟩ : Shape).Idx → EReal) :
    (⟨2, ![R, 128]⟩ : Shape).Idx → EReal :=
  fun i => max (Ideal.div (m₁ i) (max (d₁ (ix2 (i 0) (0 : Fin 1))) oneE)
      + Ideal.div (m₂ i) (max (d₂ (ix2 (i 0) (0 : Fin 1))) oneE)) zeroE

/-- One sum of neighbours divided by its degree (at least one) and cut off below at zero. -/
def meanOne {R : ℕ} (m₁ : (⟨2, ![R, 128]⟩ : Shape).Idx → EReal) (d₁ : (⟨2, ![R, 1]⟩ : Shape).Idx → EReal) :
    (⟨2, ![R, 128]⟩ : Shape).Idx → EReal :=
  fun i => max (Ideal.div (m₁ i) (max (d₁ (ix2 (i 0) (0 : Fin 1))) oneE)) zeroE

/-- Block `t` of `h` rows of an array of `R` rows. -/
def rowBlock {α : Type} {R C : ℕ} (h t : ℕ) (ht : t * h + h ≤ R) (X : (⟨2, ![R, C]⟩ : Shape).Idx → α) :
    (⟨2, ![h, C]⟩ : Shape).Idx → α :=
  fun y => X (ix2 ⟨t * h + (y 0).val, by have := idx2_lt0 y; omega⟩ (y 1))

theorem affineRows_rowBlock {R : ℕ} (h t : ℕ) (ht : t * h + h ≤ R) (x : (⟨2, ![R, 128]⟩ : Shape).Idx → EReal)
    (W : (⟨2, ![128, 128]⟩ : Shape).Idx → EReal) (b : (⟨2, ![1, 128]⟩ : Shape).Idx → EReal) :
    affineRows (rowBlock h t ht x) W b = rowBlock h t ht (affineRows x W b) := rfl

theorem meanTwo_rowBlock {R : ℕ} (h t : ℕ) (ht : t * h + h ≤ R) (m₁ : (⟨2, ![R, 128]⟩ : Shape).Idx → EReal)
    (d₁ : (⟨2, ![R, 1]⟩ : Shape).Idx → EReal) (m₂ : (⟨2, ![R, 128]⟩ : Shape).Idx → EReal) (d₂ : (⟨2, ![R, 1]⟩ : Shape).Idx → EReal) :
    meanTwo (rowBlock h t ht m₁) (rowBlock h t ht d₁) (rowBlock h t ht m₂) (rowBlock h t ht d₂)
      = rowBlock h t ht (meanTwo m₁ d₁ m₂ d₂) := rfl

theorem meanOne_rowBlock {R : ℕ} (h t : ℕ) (ht : t * h + h ≤ R) (m₁ : (⟨2, ![R, 128]⟩ : Shape).Idx → EReal)
    (d₁ : (⟨2, ![R, 1]⟩ : Shape).Idx → EReal) :
    meanOne (rowBlock h t ht m₁) (rowBlock h t ht d₁) = rowBlock h t ht (meanOne m₁ d₁) := rfl

/-! ## The layers in a kernel body's vector operations -/

/-- A matrix product into a zero accumulator with the right operand contracted on its last axis, plus a bias row
    broadcast down the rows, is `affineRows`. -/
theorem affine_ops {R : ℕ} (dot : DotDims ⟨2, ![R, 128]⟩ ⟨2, ![128, 128]⟩ ⟨2, ![R, 128]⟩)
    (hdot : dot = DotDims.transposedRhs R 128 128) (prec : Option ContractPrecision)
    (x : FVec Ideal ⟨2, ![R, 128]⟩ .f32) (W : FVec Ideal ⟨2, ![128, 128]⟩ .f32) (b : FVec Ideal ⟨2, ![1, 128]⟩ .f32)
    (hc : (⟨2, ![1, 128]⟩ : Shape).ShapeCasts ⟨2, ![1, 128]⟩) (hb : (⟨2, ![1, 128]⟩ : Shape).Broadcasts ⟨2, ![R, 128]⟩) :
    addf (matmul dot prec x W (constant ⟨2, ![R, 128]⟩ .f32 0x00000000#32))
        (broadcastTo ⟨2, ![R, 128]⟩ (shapeCast ⟨2, ![1, 128]⟩ b hc) hb)
      = affineRows x W b := by
  subst hdot
  funext j
  obtain ⟨p, q, rfl⟩ : ∃ (p : Fin R) (q : Fin 128), j = ix2 p q := ⟨j 0, j 1, eq_ix2 j⟩
  rw [addf_apply, shapeCast_self, broadcastTo_1b_ab_apply]
  unfold affineRows
  refine congrArg (· + b (ix2 (0 : Fin 1) q)) ?_
  exact Cert.LibTransposedDot.tr_matmul_apply prec x W (ix2 p q)

/-- The two-relation epilogue in vector operations is `meanTwo`. -/
theorem meanTwo_ops {R : ℕ} (m₁ : FVec Ideal ⟨2, ![R, 128]⟩ .f32) (d₁ : FVec Ideal ⟨2, ![R, 1]⟩ .f32)
    (m₂ : FVec Ideal ⟨2, ![R, 128]⟩ .f32) (d₂ : FVec Ideal ⟨2, ![R, 1]⟩ .f32)
    (hm : (⟨2, ![R, 128]⟩ : Shape).ShapeCasts ⟨2, ![R, 128]⟩) (hd : (⟨2, ![R, 1]⟩ : Shape).ShapeCasts ⟨2, ![R, 1]⟩)
    (hb : (⟨2, ![R, 1]⟩ : Shape).Broadcasts ⟨2, ![R, 128]⟩) :
    maximumf (addf
        (divf (shapeCast ⟨2, ![R, 128]⟩ m₁ hm)
          (broadcastTo ⟨2, ![R, 128]⟩ (maximumf (shapeCast ⟨2, ![R, 1]⟩ d₁ hd) (broadcast ⟨2, ![R, 1]⟩ (Scalar.ofBits (F := Ideal) .f32 0x3F800000#32))) hb))
        (divf (shapeCast ⟨2, ![R, 128]⟩ m₂ hm)
          (broadcastTo ⟨2, ![R, 128]⟩ (maximumf (shapeCast ⟨2, ![R, 1]⟩ d₂ hd) (broadcast ⟨2, ![R, 1]⟩ (Scalar.ofBits (F := Ideal) .f32 0x3F800000#32))) hb)))
      (broadcast ⟨2, ![R, 128]⟩ (Scalar.ofBits (F := Ideal) .f32 0x00000000#32))
      = meanTwo m₁ d₁ m₂ d₂ := by
  funext j
  obtain ⟨p, q, rfl⟩ : ∃ (p : Fin R) (q : Fin 128), j = ix2 p q := ⟨j 0, j 1, eq_ix2 j⟩
  simp only [shapeCast_self]
  rw [maximumf_apply, addf_apply, divf_apply, divf_apply, Cert.ColumnBroadcast.broadcastTo_a1_ab_apply,
    Cert.ColumnBroadcast.broadcastTo_a1_ab_apply, maximumf_apply, maximumf_apply]
  rfl

/-- The one-relation epilogue in vector operations is `meanOne`. -/
theorem meanOne_ops {R : ℕ} (m₁ : FVec Ideal ⟨2, ![R, 128]⟩ .f32) (d₁ : FVec Ideal ⟨2, ![R, 1]⟩ .f32)
    (hm : (⟨2, ![R, 128]⟩ : Shape).ShapeCasts ⟨2, ![R, 128]⟩) (hd : (⟨2, ![R, 1]⟩ : Shape).ShapeCasts ⟨2, ![R, 1]⟩)
    (hb : (⟨2, ![R, 1]⟩ : Shape).Broadcasts ⟨2, ![R, 128]⟩) :
    maximumf
        (divf (shapeCast ⟨2, ![R, 128]⟩ m₁ hm)
          (broadcastTo ⟨2, ![R, 128]⟩ (maximumf (shapeCast ⟨2, ![R, 1]⟩ d₁ hd) (broadcast ⟨2, ![R, 1]⟩ (Scalar.ofBits (F := Ideal) .f32 0x3F800000#32))) hb))
      (broadcast ⟨2, ![R, 128]⟩ (Scalar.ofBits (F := Ideal) .f32 0x00000000#32))
      = meanOne m₁ d₁ := by
  funext j
  obtain ⟨p, q, rfl⟩ : ∃ (p : Fin R) (q : Fin 128), j = ix2 p q := ⟨j 0, j 1, eq_ix2 j⟩
  simp only [shapeCast_self]
  rw [maximumf_apply, divf_apply, Cert.ColumnBroadcast.broadcastTo_a1_ab_apply, maximumf_apply]
  rfl

end Cert.Rows

end
-- ==== Proof.Region0.lean ====
/-
  The first kernel launch (two linear layers sharing one input), as whole arrays.

  The grid has five points; point `t` reads rows `10000 t … 10000 t + 9999` of the node features and both weight
  matrices and bias rows whole, and writes rows `10000 t …` of each of its two outputs: the block of features against
  the rows of a weight matrix, plus the bias row.  That layer computes a row of its result from the same row of the
  features, so what point `t` writes back is the row block of the layer applied to the whole feature array; the five
  blocks tile the 50000 rows, so each output array ends holding the layer of the whole arrays.
-/
import proofs.«123112_j18691697672931_2_alg».proof.Proof.Gen.KernelIdeal.Frame
import proofs.«123112_j18691697672931_2_alg».proof.Proof.Rows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Rows

variable (V : (c : Dev nD) → (b : Ref sig .tc) → Buf (Elt Ideal) ((c : Thread nD τ).loc b))

theorem hz : (![0, 0] : Fin 2 → Nat) = fun _ => 0 := funext fun a => by fin_cases a <;> rfl

/-- The grid has five points. -/
theorem lt5 (t : Fin cfg0.N) : t.val < 5 := Nat.lt_of_lt_of_eq (t.isLt : t.val < grid0.N) N_0

theorem rows_le (t : Fin cfg0.N) : t.val * 10000 + 10000 ≤ 50000 := by have := lt5 t; omega

/-- The printed index maps over the grid: a row-blocked window is at block `(t, 0)`, a whole-array window at `(0, 0)`. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks -/

theorem features_block (c : Dev nD) (t : Fin cfg0.N) :
    (iblk0 V c 0 t : Vec Ideal S10000x128 .f32) = rowBlock 10000 t.val (rows_le t) (V c main_arg0) := by
  funext y
  obtain ⟨e0, e1, -⟩ := idx t
  unfold iblk0 rowBlock
  rw [View.read_apply]
  show V c main_arg0 _ = V c main_arg0 _
  congr 1
  funext a
  apply Fin.ext
  match a with
  | ⟨0, _⟩ => show win0_0.index t (0 : Fin 2) * 10000 + 1 * (y 0).val = t.val * 10000 + (y 0).val; rw [e0]; omega
  | ⟨1, _⟩ => show win0_0.index t (1 : Fin 2) * 128 + 1 * (y 1).val = (y 1).val; rw [e1]; omega

theorem weight1_block (c : Dev nD) (t : Fin cfg0.N) : (iblk0 V c 1 t : Vec Ideal S128x128 .f32) = V c main_arg2 := by
  funext y
  obtain ⟨-, -, e0, e1, -⟩ := idx t
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

theorem bias1_block (c : Dev nD) (t : Fin cfg0.N) : (iblk0 V c 2 t : Vec Ideal S1x128 .f32) = V c main_v0 := by
  funext y
  obtain ⟨-, -, -, -, e0, e1, -⟩ := idx t
  unfold iblk0
  rw [View.read_apply]
  show V c main_v0 _ = V c main_v0 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem weight2_block (c : Dev nD) (t : Fin cfg0.N) : (iblk0 V c 3 t : Vec Ideal S128x128 .f32) = V c main_arg4 := by
  funext y
  obtain ⟨-, -, -, -, -, -, e0, e1, -⟩ := idx t
  unfold iblk0
  rw [View.read_apply]
  show V c main_arg4 _ = V c main_arg4 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem bias2_block (c : Dev nD) (t : Fin cfg0.N) : (iblk0 V c 4 t : Vec Ideal S1x128 .f32) = V c main_v1 := by
  funext y
  obtain ⟨-, -, -, -, -, -, -, -, e0, e1, -⟩ := idx t
  unfold iblk0
  rw [View.read_apply]
  show V c main_v1 _ = V c main_v1 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## The body's two stores -/

theorem store1 (x0 : Vec Ideal S10000x128 .f32) (x1 : Vec Ideal S128x128 .f32) (x2 : Vec Ideal S1x128 .f32) :
    k0_pay1 x0 x1 x2 = affineRows x0 x1 x2 :=
  affine_ops _ rfl _ x0 x1 x2 _ _

theorem store2 (x0 : Vec Ideal S10000x128 .f32) (x1 : Vec Ideal S128x128 .f32) (x2 : Vec Ideal S1x128 .f32) :
    k0_pay2 x0 x1 x2 = affineRows x0 x1 x2 :=
  affine_ops _ rfl _ x0 x1 x2 _ _

/-! ## The output blocks -/

theorem out1_read (c : Dev nD) (t : Fin cfg0.N) (G : S50000x128.Idx → EReal) :
    ((cfg0.win 5).blk t).view.read (Elt Ideal) G = rowBlock 10000 t.val (rows_le t) G := by
  funext y
  obtain ⟨-, -, -, -, -, -, -, -, -, -, e0, e1, -⟩ := idx t
  unfold rowBlock
  rw [View.read_apply]
  show G _ = G _
  congr 1
  funext a
  apply Fin.ext
  match a with
  | ⟨0, _⟩ => show win0_5.index t (0 : Fin 2) * 10000 + 1 * (y 0).val = t.val * 10000 + (y 0).val; rw [e0]; omega
  | ⟨1, _⟩ => show win0_5.index t (1 : Fin 2) * 128 + 1 * (y 1).val = (y 1).val; rw [e1]; omega

theorem out2_read (c : Dev nD) (t : Fin cfg0.N) (G : S50000x128.Idx → EReal) :
    ((cfg0.win 6).blk t).view.read (Elt Ideal) G = rowBlock 10000 t.val (rows_le t) G := by
  funext y
  obtain ⟨-, -, -, -, -, -, -, -, -, -, -, -, e0, e1⟩ := idx t
  unfold rowBlock
  rw [View.read_apply]
  show G _ = G _
  congr 1
  funext a
  apply Fin.ext
  match a with
  | ⟨0, _⟩ => show win0_6.index t (0 : Fin 2) * 10000 + 1 * (y 0).val = t.val * 10000 + (y 0).val; rw [e0]; omega
  | ⟨1, _⟩ => show win0_6.index t (1 : Fin 2) * 128 + 1 * (y 1).val = (y 1).val; rw [e1]; omega

/-- What point `t` writes back to the first output is the row block of the first layer of the whole arrays. -/
theorem flushed1 (c : Dev nD) (t : Fin cfg0.N) :
    (dat0 V c).flushed 5 t
      = ((cfg0.win 5).blk t).view.read (Elt Ideal) (affineRows (V c main_arg0) (V c main_arg2) (V c main_v0)) := by
  rw [out1_read c t]
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz, View.ld_unit_zero (S := S1x128) hz]
  rw [store1, features_block, weight1_block, bias1_block, affineRows_rowBlock]
  rfl

theorem flushed2 (c : Dev nD) (t : Fin cfg0.N) :
    (dat0 V c).flushed 6 t
      = ((cfg0.win 6).blk t).view.read (Elt Ideal) (affineRows (V c main_arg0) (V c main_arg4) (V c main_v1)) := by
  rw [out2_read c t]
  show (cfg0.win 6).cut (grid0.coords t) ((dat0 V c).after 6 t) = _
  rw [after0_6]
  unfold out0_6
  rw [View.canon_unit_zero hz]
  simp only [View.ld_unit_zero (S := S10000x128) hz, View.ld_unit_zero (S := S128x128) hz, View.ld_unit_zero (S := S1x128) hz]
  rw [store2, features_block, weight2_block, bias2_block, affineRows_rowBlock]
  rfl

/-! ## The five blocks tile the rows -/

theorem covered1 (i : S50000x128.Idx) :
    ∃ t : Fin cfg0.N, (cfg0.win 5).flush t = true ∧ i ∈ ((cfg0.win 5).blk t).view.set := by
  have h0 : (i 0).val < 50000 := idx2_lt0 i
  have h1 : (i 1).val < 128 := idx2_lt1 i
  have hN : (i 0).val / 10000 < cfg0.N := by rw [show cfg0.N = 5 from N_0]; omega
  refine ⟨⟨(i 0).val / 10000, hN⟩, flush0_5 _, ?_⟩
  obtain ⟨-, -, -, -, -, -, -, -, -, -, e0, e1, -⟩ := idx ⟨(i 0).val / 10000, hN⟩
  show i ∈ ((View.whole main_v3_0).slice (win0_5.rect ⟨(i 0).val / 10000, hN⟩)).set
  rw [View.set_slice_whole, Rect.mem_set_unit]
  intro a
  match a with
  | ⟨0, _⟩ =>
    show win0_5.index ⟨(i 0).val / 10000, hN⟩ (0 : Fin 2) * 10000 ≤ (i 0).val
      ∧ (i 0).val < win0_5.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, hN⟩ (1 : Fin 2) * 128 ≤ (i 1).val
      ∧ (i 1).val < win0_5.index ⟨(i 0).val / 10000, hN⟩ (1 : Fin 2) * 128 + 128
    rw [e1]; omega

theorem covered2 (i : S50000x128.Idx) :
    ∃ t : Fin cfg0.N, (cfg0.win 6).flush t = true ∧ i ∈ ((cfg0.win 6).blk t).view.set := by
  have h0 : (i 0).val < 50000 := idx2_lt0 i
  have h1 : (i 1).val < 128 := idx2_lt1 i
  have hN : (i 0).val / 10000 < cfg0.N := by rw [show cfg0.N = 5 from N_0]; omega
  refine ⟨⟨(i 0).val / 10000, hN⟩, flush0_6 _, ?_⟩
  obtain ⟨-, -, -, -, -, -, -, -, -, -, -, -, e0, e1⟩ := idx ⟨(i 0).val / 10000, hN⟩
  show i ∈ ((View.whole main_v3_1).slice (win0_6.rect ⟨(i 0).val / 10000, hN⟩)).set
  rw [View.set_slice_whole, Rect.mem_set_unit]
  intro a
  match a with
  | ⟨0, _⟩ =>
    show win0_6.index ⟨(i 0).val / 10000, hN⟩ (0 : Fin 2) * 10000 ≤ (i 0).val
      ∧ (i 0).val < win0_6.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_6.index ⟨(i 0).val / 10000, hN⟩ (1 : Fin 2) * 128 ≤ (i 1).val
      ∧ (i 1).val < win0_6.index ⟨(i 0).val / 10000, hN⟩ (1 : Fin 2) * 128 + 128
    rw [e1]; omega

/-! ## The output arrays after the launch -/

/-- The first output array ends holding the first layer of the arrays the launch finds. -/
theorem array1 (c : Dev nD) :
    (dat0 V c).arrAt 5 cfg0.N = affineRows (V c main_arg0) (V c main_arg2) (V c main_v0) :=
  (dat0 V c).arrAt_eq_of_cover 5 _ (fun t _ => flushed1 V c t) covered1

/-- The second output array ends holding the second layer of the arrays the launch finds. -/
theorem array2 (c : Dev nD) :
    (dat0 V c).arrAt 6 cfg0.N = affineRows (V c main_arg0) (V c main_arg4) (V c main_v1) :=
  (dat0 V c).arrAt_eq_of_cover 6 _ (fun t _ => flushed2 V c t) covered2

end Cert.KernelIdeal.Region0

end
-- ==== Proof.Region1.lean ====
/-
  The second kernel launch (one linear layer), as a whole array.

  Five grid points; point `t` reads rows `10000 t … 10000 t + 9999` of the document features and the weight matrix
  and bias row whole, and writes the same rows of its output: the block of features against the rows of the weight
  matrix, plus the bias row.  A row of the layer's result depends on the same row of the features only, so the five
  written blocks are the row blocks of the layer of the whole arrays, and they tile the 50000 rows.
-/
import proofs.«123112_j18691697672931_2_alg».proof.Proof.Gen.KernelIdeal.Frame
import proofs.«123112_j18691697672931_2_alg».proof.Proof.Rows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Rows

variable (V : (c : Dev nD) → (b : Ref sig .tc) → Buf (Elt Ideal) ((c : Thread nD τ).loc b))

theorem hz : (![0, 0] : Fin 2 → Nat) = fun _ => 0 := funext fun a => by fin_cases a <;> rfl

/-- The grid has five points. -/
theorem lt5 (t : Fin cfg1.N) : t.val < 5 := Nat.lt_of_lt_of_eq (t.isLt : t.val < grid1.N) N_1

theorem rows_le (t : Fin cfg1.N) : t.val * 10000 + 10000 ≤ 50000 := by have := lt5 t; omega

/-- The printed index maps over the grid: a row-blocked window is at block `(t, 0)`, a whole-array window at `(0, 0)`. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The input blocks -/

theorem features_block (c : Dev nD) (t : Fin cfg1.N) :
    (iblk1 V c 0 t : Vec Ideal S10000x128 .f32) = rowBlock 10000 t.val (rows_le t) (V c main_arg1) := by
  funext y
  obtain ⟨e0, e1, -⟩ := idx t
  unfold iblk1 rowBlock
  rw [View.read_apply]
  show V c main_arg1 _ = V c main_arg1 _
  congr 1
  funext a
  apply Fin.ext
  match a with
  | ⟨0, _⟩ => show win1_0.index t (0 : Fin 2) * 10000 + 1 * (y 0).val = t.val * 10000 + (y 0).val; rw [e0]; omega
  | ⟨1, _⟩ => show win1_0.index t (1 : Fin 2) * 128 + 1 * (y 1).val = (y 1).val; rw [e1]; omega

theorem weight_block (c : Dev nD) (t : Fin cfg1.N) : (iblk1 V c 1 t : Vec Ideal S128x128 .f32) = V c main_arg6 := by
  funext y
  obtain ⟨-, -, e0, e1, -⟩ := idx t
  unfold iblk1
  rw [View.read_apply]
  show V c main_arg6 _ = V c main_arg6 _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

theorem bias_block (c : Dev nD) (t : Fin cfg1.N) : (iblk1 V c 2 t : Vec Ideal S1x128 .f32) = V c main_v2 := by
  funext y
  obtain ⟨-, -, -, -, e0, e1, -⟩ := idx t
  unfold iblk1
  rw [View.read_apply]
  show V c main_v2 _ = V c main_v2 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-! ## The body's store -/

theorem store (x0 : Vec Ideal S10000x128 .f32) (x1 : Vec Ideal S128x128 .f32) (x2 : Vec Ideal S1x128 .f32) :
    k1_pay1 x0 x1 x2 = affineRows x0 x1 x2 :=
  affine_ops _ rfl _ x0 x1 x2 _ _

/-! ## The output blocks -/

theorem out_read (c : Dev nD) (t : Fin cfg1.N) (G : S50000x128.Idx → EReal) :
    ((cfg1.win 3).blk t).view.read (Elt Ideal) G = rowBlock 10000 t.val (rows_le t) G := by
  funext y
  obtain ⟨-, -, -, -, -, -, e0, e1⟩ := idx t
  unfold rowBlock
  rw [View.read_apply]
  show G _ = G _
  congr 1
  funext a
  apply Fin.ext
  match a with
  | ⟨0, _⟩ => show win1_3.index t (0 : Fin 2) * 10000 + 1 * (y 0).val = t.val * 10000 + (y 0).val; rw [e0]; omega
  | ⟨1, _⟩ => show win1_3.index t (1 : Fin 2) * 128 + 1 * (y 1).val = (y 1).val; rw [e1]; omega

/-- What point `t` writes back is the row block of the layer of the whole arrays. -/
theorem flushed (c : Dev nD) (t : Fin cfg1.N) :
    (dat1 V c).flushed 3 t
      = ((cfg1.win 3).blk t).view.read (Elt Ideal) (affineRows (V c main_arg1) (V c main_arg6) (V c main_v2)) := by
  rw [out_read c t]
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S1x128) hz]
  rw [store, features_block, weight_block, bias_block, affineRows_rowBlock]
  rfl

/-! ## The five blocks tile the rows -/

theorem covered (i : S50000x128.Idx) :
    ∃ t : Fin cfg1.N, (cfg1.win 3).flush t = true ∧ i ∈ ((cfg1.win 3).blk t).view.set := by
  have h0 : (i 0).val < 50000 := idx2_lt0 i
  have h1 : (i 1).val < 128 := idx2_lt1 i
  have hN : (i 0).val / 10000 < cfg1.N := by rw [show cfg1.N = 5 from N_1]; omega
  refine ⟨⟨(i 0).val / 10000, hN⟩, flush1_3 _, ?_⟩
  obtain ⟨-, -, -, -, -, -, e0, e1⟩ := idx ⟨(i 0).val / 10000, hN⟩
  show i ∈ ((View.whole main_v4).slice (win1_3.rect ⟨(i 0).val / 10000, hN⟩)).set
  rw [View.set_slice_whole, Rect.mem_set_unit]
  intro a
  match a with
  | ⟨0, _⟩ =>
    show win1_3.index ⟨(i 0).val / 10000, hN⟩ (0 : Fin 2) * 10000 ≤ (i 0).val
      ∧ (i 0).val < win1_3.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, hN⟩ (1 : Fin 2) * 128 ≤ (i 1).val
      ∧ (i 1).val < win1_3.index ⟨(i 0).val / 10000, hN⟩ (1 : Fin 2) * 128 + 128
    rw [e1]; omega

/-! ## The output array after the launch -/

/-- The output array ends holding the layer of the arrays the launch finds. -/
theorem array (c : Dev nD) :
    (dat1 V c).arrAt 3 cfg1.N = affineRows (V c main_arg1) (V c main_arg6) (V c main_v2) :=
  (dat1 V c).arrAt_eq_of_cover 3 _ (fun t _ => flushed V c t) covered

end Cert.KernelIdeal.Region1

end
-- ==== Proof.Region2.lean ====
/-
  The third kernel launch (the epilogue of the two relations that end in word nodes), as a whole array.

  Five grid points; point `t` reads rows `10000 t … 10000 t + 9999` of two neighbour sums (128 wide) and of two
  degree columns (one wide), and writes the same rows of its output: each sum divided by its degree (at least one), the
  two added, cut off below at zero.  Row `r` of that depends on row `r` of the four operands only, so the five written
  blocks are the row blocks of the epilogue of the whole arrays, and they tile the 50000 rows.
-/
import proofs.«123112_j18691697672931_2_alg».proof.Proof.Gen.KernelIdeal.Frame
import proofs.«123112_j18691697672931_2_alg».proof.Proof.Rows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Rows

variable (V : (c : Dev nD) → (b : Ref sig .tc) → Buf (Elt Ideal) ((c : Thread nD τ).loc b))

theorem hz : (![0, 0] : Fin 2 → Nat) = fun _ => 0 := funext fun a => by fin_cases a <;> rfl

/-- The grid has five points. -/
theorem lt5 (t : Fin cfg2.N) : t.val < 5 := Nat.lt_of_lt_of_eq (t.isLt : t.val < grid2.N) N_2

theorem rows_le (t : Fin cfg2.N) : t.val * 10000 + 10000 ≤ 50000 := by have := lt5 t; omega

/-- The printed index maps over the grid: every window is at block `(t, 0)`. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-! ## The input blocks -/

theorem sum1_block (c : Dev nD) (t : Fin cfg2.N) :
    (iblk2 V c 0 t : Vec Ideal S10000x128 .f32) = rowBlock 10000 t.val (rows_le t) (V c main_v14) := by
  funext y
  obtain ⟨e0, e1, -⟩ := idx t
  unfold iblk2 rowBlock
  rw [View.read_apply]
  show V c main_v14 _ = V c main_v14 _
  congr 1
  funext a
  apply Fin.ext
  match a with
  | ⟨0, _⟩ => show win2_0.index t (0 : Fin 2) * 10000 + 1 * (y 0).val = t.val * 10000 + (y 0).val; rw [e0]; omega
  | ⟨1, _⟩ => show win2_0.index t (1 : Fin 2) * 128 + 1 * (y 1).val = (y 1).val; rw [e1]; omega

theorem degree1_block (c : Dev nD) (t : Fin cfg2.N) :
    (iblk2 V c 1 t : Vec Ideal S10000x1 .f32) = rowBlock 10000 t.val (rows_le t) (V c main_v20) := by
  funext y
  obtain ⟨-, -, e0, e1, -⟩ := idx t
  unfold iblk2 rowBlock
  rw [View.read_apply]
  show V c main_v20 _ = V c main_v20 _
  congr 1
  funext a
  apply Fin.ext
  match a with
  | ⟨0, _⟩ => show win2_1.index t (0 : Fin 2) * 10000 + 1 * (y 0).val = t.val * 10000 + (y 0).val; rw [e0]; omega
  | ⟨1, _⟩ => show win2_1.index t (1 : Fin 2) * 1 + 1 * (y 1).val = (y 1).val; rw [e1]; omega

theorem sum2_block (c : Dev nD) (t : Fin cfg2.N) :
    (iblk2 V c 2 t : Vec Ideal S10000x128 .f32) = rowBlock 10000 t.val (rows_le t) (V c main_v30) := by
  funext y
  obtain ⟨-, -, -, -, e0, e1, -⟩ := idx t
  unfold iblk2 rowBlock
  rw [View.read_apply]
  show V c main_v30 _ = V c main_v30 _
  congr 1
  funext a
  apply Fin.ext
  match a with
  | ⟨0, _⟩ => show win2_2.index t (0 : Fin 2) * 10000 + 1 * (y 0).val = t.val * 10000 + (y 0).val; rw [e0]; omega
  | ⟨1, _⟩ => show win2_2.index t (1 : Fin 2) * 128 + 1 * (y 1).val = (y 1).val; rw [e1]; omega

theorem degree2_block (c : Dev nD) (t : Fin cfg2.N) :
    (iblk2 V c 3 t : Vec Ideal S10000x1 .f32) = rowBlock 10000 t.val (rows_le t) (V c main_v36) := by
  funext y
  obtain ⟨-, -, -, -, -, -, e0, e1, -⟩ := idx t
  unfold iblk2 rowBlock
  rw [View.read_apply]
  show V c main_v36 _ = V c main_v36 _
  congr 1
  funext a
  apply Fin.ext
  match a with
  | ⟨0, _⟩ => show win2_3.index t (0 : Fin 2) * 10000 + 1 * (y 0).val = t.val * 10000 + (y 0).val; rw [e0]; omega
  | ⟨1, _⟩ => show win2_3.index t (1 : Fin 2) * 1 + 1 * (y 1).val = (y 1).val; rw [e1]; omega

/-! ## The body's store -/

theorem store (x0 : Vec Ideal S10000x1 .f32) (x1 : Vec Ideal S10000x1 .f32) (x2 : Vec Ideal S10000x128 .f32) (x3 : Vec Ideal S10000x128 .f32) :
    k2_pay1 x0 x1 x2 x3 = meanTwo x2 x0 x3 x1 :=
  meanTwo_ops x2 x0 x3 x1 _ _ _

/-! ## The output blocks -/

theorem out_read (c : Dev nD) (t : Fin cfg2.N) (G : S50000x128.Idx → EReal) :
    ((cfg2.win 4).blk t).view.read (Elt Ideal) G = rowBlock 10000 t.val (rows_le t) G := by
  funext y
  obtain ⟨-, -, -, -, -, -, -, -, e0, e1⟩ := idx t
  unfold rowBlock
  rw [View.read_apply]
  show G _ = G _
  congr 1
  funext a
  apply Fin.ext
  match a with
  | ⟨0, _⟩ => show win2_4.index t (0 : Fin 2) * 10000 + 1 * (y 0).val = t.val * 10000 + (y 0).val; rw [e0]; omega
  | ⟨1, _⟩ => show win2_4.index t (1 : Fin 2) * 128 + 1 * (y 1).val = (y 1).val; rw [e1]; omega

/-- What point `t` writes back is the row block of the epilogue of the whole arrays. -/
theorem flushed (c : Dev nD) (t : Fin cfg2.N) :
    (dat2 V c).flushed 4 t
      = ((cfg2.win 4).blk t).view.read (Elt Ideal) (meanTwo (V c main_v14) (V c main_v20) (V c main_v30) (V c main_v36)) := by
  rw [out_read c t]
  show (cfg2.win 4).cut (grid2.coords t) ((dat2 V c).after 4 t) = _
  rw [after2_4]
  unfold out2_4
  rw [View.canon_unit_zero hz]
  simp only [View.ld_unit_zero (S := S10000x128) hz, View.ld_unit_zero (S := S10000x1) hz]
  rw [store, sum1_block, degree1_block, sum2_block, degree2_block, meanTwo_rowBlock]
  rfl

/-! ## The five blocks tile the rows -/

theorem covered (i : S50000x128.Idx) :
    ∃ t : Fin cfg2.N, (cfg2.win 4).flush t = true ∧ i ∈ ((cfg2.win 4).blk t).view.set := by
  have h0 : (i 0).val < 50000 := idx2_lt0 i
  have h1 : (i 1).val < 128 := idx2_lt1 i
  have hN : (i 0).val / 10000 < cfg2.N := by rw [show cfg2.N = 5 from N_2]; omega
  refine ⟨⟨(i 0).val / 10000, hN⟩, flush2_4 _, ?_⟩
  obtain ⟨-, -, -, -, -, -, -, -, e0, e1⟩ := idx ⟨(i 0).val / 10000, hN⟩
  show i ∈ ((View.whole main_v53).slice (win2_4.rect ⟨(i 0).val / 10000, hN⟩)).set
  rw [View.set_slice_whole, Rect.mem_set_unit]
  intro a
  match a with
  | ⟨0, _⟩ =>
    show win2_4.index ⟨(i 0).val / 10000, hN⟩ (0 : Fin 2) * 10000 ≤ (i 0).val
      ∧ (i 0).val < win2_4.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win2_4.index ⟨(i 0).val / 10000, hN⟩ (1 : Fin 2) * 128 ≤ (i 1).val
      ∧ (i 1).val < win2_4.index ⟨(i 0).val / 10000, hN⟩ (1 : Fin 2) * 128 + 128
    rw [e1]; omega

/-! ## The output array after the launch -/

/-- The output array ends holding the epilogue of the arrays the launch finds. -/
theorem array (c : Dev nD) :
    (dat2 V c).arrAt 4 cfg2.N = meanTwo (V c main_v14) (V c main_v20) (V c main_v30) (V c main_v36) :=
  (dat2 V c).arrAt_eq_of_cover 4 _ (fun t _ => flushed V c t) covered

end Cert.KernelIdeal.Region2

end
-- ==== Proof.Region3.lean ====
/-
  The fourth kernel launch (the epilogue of the relation that ends in document nodes), as a whole array.

  Five grid points; point `t` reads rows `10000 t … 10000 t + 9999` of a neighbour sum (128 wide) and of a degree
  column (one wide), and writes the same rows of its output: the sum divided by the degree (at least one), cut off
  below at zero.  Row `r` of that depends on row `r` of the two operands only, so the five written blocks are the row
  blocks of the epilogue of the whole arrays, and they tile the 50000 rows.
-/
import proofs.«123112_j18691697672931_2_alg».proof.Proof.Gen.KernelIdeal.Frame
import proofs.«123112_j18691697672931_2_alg».proof.Proof.Rows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Rows

variable (V : (c : Dev nD) → (b : Ref sig .tc) → Buf (Elt Ideal) ((c : Thread nD τ).loc b))

theorem hz : (![0, 0] : Fin 2 → Nat) = fun _ => 0 := funext fun a => by fin_cases a <;> rfl

/-- The grid has five points. -/
theorem lt5 (t : Fin cfg3.N) : t.val < 5 := Nat.lt_of_lt_of_eq (t.isLt : t.val < grid3.N) N_3

theorem rows_le (t : Fin cfg3.N) : t.val * 10000 + 10000 ≤ 50000 := by have := lt5 t; omega

/-- The printed index maps over the grid: every window is at block `(t, 0)`. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-! ## The input blocks -/

theorem sum_block (c : Dev nD) (t : Fin cfg3.N) :
    (iblk3 V c 0 t : Vec Ideal S10000x128 .f32) = rowBlock 10000 t.val (rows_le t) (V c main_v46) := by
  funext y
  obtain ⟨e0, e1, -⟩ := idx t
  unfold iblk3 rowBlock
  rw [View.read_apply]
  show V c main_v46 _ = V c main_v46 _
  congr 1
  funext a
  apply Fin.ext
  match a with
  | ⟨0, _⟩ => show win3_0.index t (0 : Fin 2) * 10000 + 1 * (y 0).val = t.val * 10000 + (y 0).val; rw [e0]; omega
  | ⟨1, _⟩ => show win3_0.index t (1 : Fin 2) * 128 + 1 * (y 1).val = (y 1).val; rw [e1]; omega

theorem degree_block (c : Dev nD) (t : Fin cfg3.N) :
    (iblk3 V c 1 t : Vec Ideal S10000x1 .f32) = rowBlock 10000 t.val (rows_le t) (V c main_v52) := by
  funext y
  obtain ⟨-, -, e0, e1, -⟩ := idx t
  unfold iblk3 rowBlock
  rw [View.read_apply]
  show V c main_v52 _ = V c main_v52 _
  congr 1
  funext a
  apply Fin.ext
  match a with
  | ⟨0, _⟩ => show win3_1.index t (0 : Fin 2) * 10000 + 1 * (y 0).val = t.val * 10000 + (y 0).val; rw [e0]; omega
  | ⟨1, _⟩ => show win3_1.index t (1 : Fin 2) * 1 + 1 * (y 1).val = (y 1).val; rw [e1]; omega

/-! ## The body's store -/

theorem store (x0 : Vec Ideal S10000x1 .f32) (x1 : Vec Ideal S10000x128 .f32) :
    k3_pay1 x0 x1 = meanOne x1 x0 :=
  meanOne_ops x1 x0 _ _ _

/-! ## The output blocks -/

theorem out_read (c : Dev nD) (t : Fin cfg3.N) (G : S50000x128.Idx → EReal) :
    ((cfg3.win 2).blk t).view.read (Elt Ideal) G = rowBlock 10000 t.val (rows_le t) G := by
  funext y
  obtain ⟨-, -, -, -, e0, e1⟩ := idx t
  unfold rowBlock
  rw [View.read_apply]
  show G _ = G _
  congr 1
  funext a
  apply Fin.ext
  match a with
  | ⟨0, _⟩ => show win3_2.index t (0 : Fin 2) * 10000 + 1 * (y 0).val = t.val * 10000 + (y 0).val; rw [e0]; omega
  | ⟨1, _⟩ => show win3_2.index t (1 : Fin 2) * 128 + 1 * (y 1).val = (y 1).val; rw [e1]; omega

/-- What point `t` writes back is the row block of the epilogue of the whole arrays. -/
theorem flushed (c : Dev nD) (t : Fin cfg3.N) :
    (dat3 V c).flushed 2 t
      = ((cfg3.win 2).blk t).view.read (Elt Ideal) (meanOne (V c main_v46) (V c main_v52)) := by
  rw [out_read c t]
  show (cfg3.win 2).cut (grid3.coords t) ((dat3 V c).after 2 t) = _
  rw [after3_2]
  unfold out3_2
  rw [View.canon_unit_zero hz]
  simp only [View.ld_unit_zero (S := S10000x128) hz, View.ld_unit_zero (S := S10000x1) hz]
  rw [store, sum_block, degree_block, meanOne_rowBlock]
  rfl

/-! ## The five blocks tile the rows -/

theorem covered (i : S50000x128.Idx) :
    ∃ t : Fin cfg3.N, (cfg3.win 2).flush t = true ∧ i ∈ ((cfg3.win 2).blk t).view.set := by
  have h0 : (i 0).val < 50000 := idx2_lt0 i
  have h1 : (i 1).val < 128 := idx2_lt1 i
  have hN : (i 0).val / 10000 < cfg3.N := by rw [show cfg3.N = 5 from N_3]; omega
  refine ⟨⟨(i 0).val / 10000, hN⟩, flush3_2 _, ?_⟩
  obtain ⟨-, -, -, -, e0, e1⟩ := idx ⟨(i 0).val / 10000, hN⟩
  show i ∈ ((View.whole main_v54).slice (win3_2.rect ⟨(i 0).val / 10000, hN⟩)).set
  rw [View.set_slice_whole, Rect.mem_set_unit]
  intro a
  match a with
  | ⟨0, _⟩ =>
    show win3_2.index ⟨(i 0).val / 10000, hN⟩ (0 : Fin 2) * 10000 ≤ (i 0).val
      ∧ (i 0).val < win3_2.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win3_2.index ⟨(i 0).val / 10000, hN⟩ (1 : Fin 2) * 128 ≤ (i 1).val
      ∧ (i 1).val < win3_2.index ⟨(i 0).val / 10000, hN⟩ (1 : Fin 2) * 128 + 128
    rw [e1]; omega

/-! ## The output array after the launch -/

/-- The output array ends holding the epilogue of the arrays the launch finds. -/
theorem array (c : Dev nD) :
    (dat3 V c).arrAt 2 cfg3.N = meanOne (V c main_v46) (V c main_v52) :=
  (dat3 V c).arrAt_eq_of_cover 2 _ (fun t _ => flushed V c t) covered

end Cert.KernelIdeal.Region3

end
-- ==== Proof.KernelValue.lean ====
/-
  The idealized kernel program's result array as one term of the argument arrays.

  The program's fold of buffer contents, read boundary by boundary:
  * the first stretch of array operations turns each bias vector into a one-row matrix and writes nothing else;
  * the first two launches write the three linear layers (features against the rows of a weight matrix, plus the bias
    row) of the arguments;
  * the second stretch gathers rows of a layer at the (wrapped) source numbers and scatter-adds them at the target
    numbers (`gatherSum`), and counts the targets in 32-bit integers, converts the counts and keeps them as a
    column (`degreeColumn`), once per relation;
  * the last two launches write the two epilogues of those sums and degree columns;
  * the last operation concatenates the two epilogues.
  A launch's inputs are read back through the fold to the arguments: no launch and no array operation writes an
  argument, and a launch writes only its own outputs.
-/
import proofs.«123112_j18691697672931_2_alg».proof.Proof.Gen.KernelIdeal.Frame
import proofs.«123112_j18691697672931_2_alg».proof.Proof.Rows
import proofs.«123112_j18691697672931_2_alg».proof.Proof.Region0
import proofs.«123112_j18691697672931_2_alg».proof.Proof.Region1
import proofs.«123112_j18691697672931_2_alg».proof.Proof.Region2
import proofs.«123112_j18691697672931_2_alg».proof.Proof.Region3
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.HostFold

open Cert.KernelIdeal Cert.KernelIdeal.Gen Cert.Rows

/-- Rows of a layer gathered at the source numbers (a negative number wrapped by the row count) and scatter-added
    into zeros at the target numbers. -/
def gatherSum (Wh : FVec Ideal S50000x128 .f32) (src dst : IVec S600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 Wh
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- The number of edges at each target, counted in 32-bit integers, converted, kept as a column. -/
def degreeColumn (dst : IVec S600000 32) : FVec Ideal S50000x1 .f32 :=
  shapeCast S50000x1 (sitofp .f32 (Host.scatter scatter_S50000_S600000x1_S600000_n_0_0_1 IntOp.addi
      (broadcastInDim S50000 ![] bcast_S_S50000 (constantI S_ 32 0#32))
      (broadcastInDim S600000x1 ![0] bcast_S600000_S600000x1_0 dst)
      (broadcastInDim S600000 ![] bcast_S_S600000 (constantI S_ 32 1#32)))) shapeCasts_S50000_S50000x1

/-- A bias vector as a one-row matrix. -/
def biasRow (b : FVec Ideal S128 .f32) : FVec Ideal S1x128 .f32 := shapeCast S1x128 b shapeCasts_S128_S1x128

/-- The result array as one term of the argument arrays. -/
def value (x0 x1 : FVec Ideal S50000x128 .f32) (x2 : FVec Ideal S128x128 .f32) (x3 : FVec Ideal S128 .f32)
    (x4 : FVec Ideal S128x128 .f32) (x5 : FVec Ideal S128 .f32) (x6 : FVec Ideal S128x128 .f32) (x7 : FVec Ideal S128 .f32)
    (x8 x9 x10 x11 x12 x13 : IVec S600000 32) : FVec Ideal S100000x128 .f32 :=
  concatenate S100000x128 0
    [⟨S50000x128, meanTwo (gatherSum (affineRows x0 x2 (biasRow x3)) x8 x9) (degreeColumn x9)
        (gatherSum (affineRows x1 x6 (biasRow x7)) x12 x13) (degreeColumn x13)⟩,
     ⟨S50000x128, meanOne (gatherSum (affineRows x0 x4 (biasRow x5)) x10 x11) (degreeColumn x11)⟩]
    concatenates_S50000x128_S50000x128_S100000x128_d0

variable (m : (ℓ : Loc nD τ sig) → Buf (Elt Ideal) ℓ) (ρ : Dev nD → PrngReg)

/-! ## After the first stretch: the arguments as launched, the biases as rows -/

theorem first_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results <;> rfl
theorem first_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results <;> rfl
theorem first_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results <;> rfl
theorem first_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results <;> rfl
theorem first_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results <;> rfl
theorem first_arg8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results <;> rfl
theorem first_arg9 (c : Dev nD) : W1 m ρ c (Proc.devRef .tc main_arg9) = m ((c : Thread nD τ).loc main_arg9) := by
  show StableHlo.after hostOps0 (W0 m ρ c) (Proc.devRef .tc main_arg9) = _
  dsimp only [hostOps0]
  after_results <;> rfl
theorem first_arg10 (c : Dev nD) : W1 m ρ c (Proc.devRef .tc main_arg10) = m ((c : Thread nD τ).loc main_arg10) := by
  show StableHlo.after hostOps0 (W0 m ρ c) (Proc.devRef .tc main_arg10) = _
  dsimp only [hostOps0]
  after_results <;> rfl
theorem first_arg11 (c : Dev nD) : W1 m ρ c (Proc.devRef .tc main_arg11) = m ((c : Thread nD τ).loc main_arg11) := by
  show StableHlo.after hostOps0 (W0 m ρ c) (Proc.devRef .tc main_arg11) = _
  dsimp only [hostOps0]
  after_results <;> rfl
theorem first_arg12 (c : Dev nD) : W1 m ρ c (Proc.devRef .tc main_arg12) = m ((c : Thread nD τ).loc main_arg12) := by
  show StableHlo.after hostOps0 (W0 m ρ c) (Proc.devRef .tc main_arg12) = _
  dsimp only [hostOps0]
  after_results <;> rfl
theorem first_arg13 (c : Dev nD) : W1 m ρ c (Proc.devRef .tc main_arg13) = m ((c : Thread nD τ).loc main_arg13) := by
  show StableHlo.after hostOps0 (W0 m ρ c) (Proc.devRef .tc main_arg13) = _
  dsimp only [hostOps0]
  after_results <;> rfl
theorem first_bias1 (c : Dev nD) : W1 m ρ c (Proc.devRef .tc main_v0) = biasRow (m ((c : Thread nD τ).loc main_arg3)) := by
  show StableHlo.after hostOps0 (W0 m ρ c) (Proc.devRef .tc main_v0) = _
  dsimp only [hostOps0]
  after_results <;> rfl
theorem first_bias2 (c : Dev nD) : W1 m ρ c (Proc.devRef .tc main_v1) = biasRow (m ((c : Thread nD τ).loc main_arg5)) := by
  show StableHlo.after hostOps0 (W0 m ρ c) (Proc.devRef .tc main_v1) = _
  dsimp only [hostOps0]
  after_results <;> rfl
theorem first_bias3 (c : Dev nD) : W1 m ρ c (Proc.devRef .tc main_v2) = biasRow (m ((c : Thread nD τ).loc main_arg7)) := by
  show StableHlo.after hostOps0 (W0 m ρ c) (Proc.devRef .tc main_v2) = _
  dsimp only [hostOps0]
  after_results <;> rfl

/-! ## After the two linear launches -/

/-- The layer of the word-to-word relation. -/
theorem layer_ww (c : Dev nD) : W3 m ρ c (Proc.devRef .tc main_v3_0)
    = affineRows (m ((c : Thread nD τ).loc main_arg0)) (m ((c : Thread nD τ).loc main_arg2)) (biasRow (m ((c : Thread nD τ).loc main_arg3))) := by
  rw [W3_of_ne m ρ c main_v3_0 (by decide)]
  refine (W2_arr m ρ c 5).trans ((Region0.array1 (V1 m ρ) c).trans ?_)
  show affineRows (W1 m ρ c (Proc.devRef .tc main_arg0)) (W1 m ρ c (Proc.devRef .tc main_arg2)) (W1 m ρ c (Proc.devRef .tc main_v0)) = _
  rw [first_arg0, first_arg2, first_bias1]

/-- The layer of the word-to-document relation. -/
theorem layer_wd (c : Dev nD) : W3 m ρ c (Proc.devRef .tc main_v3_1)
    = affineRows (m ((c : Thread nD τ).loc main_arg0)) (m ((c : Thread nD τ).loc main_arg4)) (biasRow (m ((c : Thread nD τ).loc main_arg5))) := by
  rw [W3_of_ne m ρ c main_v3_1 (by decide)]
  refine (W2_arr m ρ c 6).trans ((Region0.array2 (V1 m ρ) c).trans ?_)
  show affineRows (W1 m ρ c (Proc.devRef .tc main_arg0)) (W1 m ρ c (Proc.devRef .tc main_arg4)) (W1 m ρ c (Proc.devRef .tc main_v1)) = _
  rw [first_arg0, first_arg4, first_bias2]

/-- The layer of the document-to-word relation. -/
theorem layer_dw (c : Dev nD) : W3 m ρ c (Proc.devRef .tc main_v4)
    = affineRows (m ((c : Thread nD τ).loc main_arg1)) (m ((c : Thread nD τ).loc main_arg6)) (biasRow (m ((c : Thread nD τ).loc main_arg7))) := by
  refine (W3_arr m ρ c 3).trans ((Region1.array (V2 m ρ) c).trans ?_)
  show affineRows (W2 m ρ c (Proc.devRef .tc main_arg1)) (W2 m ρ c (Proc.devRef .tc main_arg6)) (W2 m ρ c (Proc.devRef .tc main_v2)) = _
  rw [W2_of_ne m ρ c main_arg1 (by decide), W2_of_ne m ρ c main_arg6 (by decide), W2_of_ne m ρ c main_v2 (by decide),
    first_arg1, first_arg6, first_bias3]

theorem edges_arg8 (c : Dev nD) : W3 m ρ c (Proc.devRef .tc main_arg8) = m ((c : Thread nD τ).loc main_arg8) := by
  rw [W3_of_ne m ρ c main_arg8 (by decide), W2_of_ne m ρ c main_arg8 (by decide), first_arg8]
theorem edges_arg9 (c : Dev nD) : W3 m ρ c (Proc.devRef .tc main_arg9) = m ((c : Thread nD τ).loc main_arg9) := by
  rw [W3_of_ne m ρ c main_arg9 (by decide), W2_of_ne m ρ c main_arg9 (by decide), first_arg9]
theorem edges_arg10 (c : Dev nD) : W3 m ρ c (Proc.devRef .tc main_arg10) = m ((c : Thread nD τ).loc main_arg10) := by
  rw [W3_of_ne m ρ c main_arg10 (by decide), W2_of_ne m ρ c main_arg10 (by decide), first_arg10]
theorem edges_arg11 (c : Dev nD) : W3 m ρ c (Proc.devRef .tc main_arg11) = m ((c : Thread nD τ).loc main_arg11) := by
  rw [W3_of_ne m ρ c main_arg11 (by decide), W2_of_ne m ρ c main_arg11 (by decide), first_arg11]
theorem edges_arg12 (c : Dev nD) : W3 m ρ c (Proc.devRef .tc main_arg12) = m ((c : Thread nD τ).loc main_arg12) := by
  rw [W3_of_ne m ρ c main_arg12 (by decide), W2_of_ne m ρ c main_arg12 (by decide), first_arg12]
theorem edges_arg13 (c : Dev nD) : W3 m ρ c (Proc.devRef .tc main_arg13) = m ((c : Thread nD τ).loc main_arg13) := by
  rw [W3_of_ne m ρ c main_arg13 (by decide), W2_of_ne m ρ c main_arg13 (by decide), first_arg13]

/-! ## After the second stretch: the sums and the degree columns -/

theorem sum_ww (c : Dev nD) : W4 m ρ c (Proc.devRef .tc main_v14)
    = gatherSum (W3 m ρ c (Proc.devRef .tc main_v3_0)) (W3 m ρ c (Proc.devRef .tc main_arg8)) (W3 m ρ c (Proc.devRef .tc main_arg9)) := by
  show StableHlo.after hostOps2 (W3 m ρ c) (Proc.devRef .tc main_v14) = _
  dsimp only [hostOps2]
  after_results_simp; rfl
theorem degree_ww (c : Dev nD) : W4 m ρ c (Proc.devRef .tc main_v20) = degreeColumn (W3 m ρ c (Proc.devRef .tc main_arg9)) := by
  show StableHlo.after hostOps2 (W3 m ρ c) (Proc.devRef .tc main_v20) = _
  dsimp only [hostOps2]
  after_results_simp; rfl
theorem sum_dw (c : Dev nD) : W4 m ρ c (Proc.devRef .tc main_v30)
    = gatherSum (W3 m ρ c (Proc.devRef .tc main_v4)) (W3 m ρ c (Proc.devRef .tc main_arg12)) (W3 m ρ c (Proc.devRef .tc main_arg13)) := by
  show StableHlo.after hostOps2 (W3 m ρ c) (Proc.devRef .tc main_v30) = _
  dsimp only [hostOps2]
  after_results_simp; rfl
theorem degree_dw (c : Dev nD) : W4 m ρ c (Proc.devRef .tc main_v36) = degreeColumn (W3 m ρ c (Proc.devRef .tc main_arg13)) := by
  show StableHlo.after hostOps2 (W3 m ρ c) (Proc.devRef .tc main_v36) = _
  dsimp only [hostOps2]
  after_results_simp; rfl
theorem sum_wd (c : Dev nD) : W4 m ρ c (Proc.devRef .tc main_v46)
    = gatherSum (W3 m ρ c (Proc.devRef .tc main_v3_1)) (W3 m ρ c (Proc.devRef .tc main_arg10)) (W3 m ρ c (Proc.devRef .tc main_arg11)) := by
  show StableHlo.after hostOps2 (W3 m ρ c) (Proc.devRef .tc main_v46) = _
  dsimp only [hostOps2]
  after_results_simp; rfl
theorem degree_wd (c : Dev nD) : W4 m ρ c (Proc.devRef .tc main_v52) = degreeColumn (W3 m ρ c (Proc.devRef .tc main_arg11)) := by
  show StableHlo.after hostOps2 (W3 m ρ c) (Proc.devRef .tc main_v52) = _
  dsimp only [hostOps2]
  after_results_simp; rfl

/-! ## After the two epilogue launches, and the concatenation -/

/-- The word nodes' result. -/
theorem words (c : Dev nD) : W6 m ρ c (Proc.devRef .tc main_v53)
    = meanTwo (W4 m ρ c (Proc.devRef .tc main_v14)) (W4 m ρ c (Proc.devRef .tc main_v20))
        (W4 m ρ c (Proc.devRef .tc main_v30)) (W4 m ρ c (Proc.devRef .tc main_v36)) := by
  rw [W6_of_ne m ρ c main_v53 (by decide)]
  exact (W5_arr m ρ c 4).trans (Region2.array (V4 m ρ) c)

/-- The document nodes' result. -/
theorem documents (c : Dev nD) : W6 m ρ c (Proc.devRef .tc main_v54)
    = meanOne (W4 m ρ c (Proc.devRef .tc main_v46)) (W4 m ρ c (Proc.devRef .tc main_v52)) := by
  refine (W6_arr m ρ c 2).trans ((Region3.array (V5 m ρ) c).trans ?_)
  show meanOne (W5 m ρ c (Proc.devRef .tc main_v46)) (W5 m ρ c (Proc.devRef .tc main_v52)) = _
  rw [W5_of_ne m ρ c main_v46 (by decide), W5_of_ne m ρ c main_v52 (by decide)]

/-- The result array at the last boundary is `value` of the argument arrays. -/
theorem result (c : Dev nD) : W7 m ρ c (Proc.devRef .tc main_v55)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  have h : W7 m ρ c (Proc.devRef .tc main_v55)
      = concatenate S100000x128 0 [⟨S50000x128, W6 m ρ c (Proc.devRef .tc main_v53)⟩, ⟨S50000x128, W6 m ρ c (Proc.devRef .tc main_v54)⟩]
          concatenates_S50000x128_S50000x128_S100000x128_d0 := by
    show StableHlo.after hostOps4 (W6 m ρ c) (Proc.devRef .tc main_v55) = _
    dsimp only [hostOps4]
    after_results <;> rfl
  rw [h, words, documents, sum_ww, degree_ww, sum_dw, degree_dw, sum_wd, degree_wd, layer_ww, layer_wd, layer_dw,
    edges_arg8, edges_arg9, edges_arg10, edges_arg11, edges_arg12, edges_arg13]
  rfl

end Cert.KernelIdeal.HostFold

end
-- ==== Proof.LibIntCumsumScatter.lean ====
/-
  Integer prefix sums and histograms on the host, read at a position.

  Three idioms of integer index arithmetic, each printed as a left fold of the 32-bit addition, are read here as
  natural-number counts, so that the counting is done in the naturals and turned into a word once, at the end.
  * Folds: adding the words of natural numbers along a list gives the word of their sum; a sum over the row-major
    positions of a rank-1 shape is the sum over its coordinate; among the `k < n` exactly `n - c` satisfy `c ≤ k`.
  * The prefix sum of a vector of length 1024, printed as a window reduction (window 1024, stride 1, 1023 cells of zero
    padding in front): the window at position `j` covers the padded cells `j, …, j + 1023`, so the reduction is the sum
    of the entries `0, …, j` (`cumsum_apply`).  Instances: all ones gives `j + 1`; zero at position 0 and one
    elsewhere gives `j`.
  * The scatter-add, a fold over the updates in row-major order in which an update is added at the position its index
    names and dropped when that position is outside the operand: over words of natural numbers the result at a
    position is the word of the operand's number plus the sum of the updates landing there (`scatter_addi_ofNat`).
    For a vector of updates scattered into a vector (`x.at[idx].add(v)`), update `e` lands on position `n` exactly
    when its index read as a signed integer is `n` (`vec_resultIdx?`), so ones scattered into zeros give a histogram
    (`vec_scatter_count`).  Instance: the indices `1, …, 1024` over 1024 bins give zero in bin 0 and one in every
    other bin, the index 1024 being out of range and dropped (`hist_of_shifted`).
-/
import Idealize.ShloMosaic.Lib.ValueIdx
import Idealize.ShloMosaic.PureOps.Contract

noncomputable section

open scoped BigOperators

namespace Idealize.ShloMosaic.IntCount

open Idealize.ShloMosaic Idealize.ShloMosaic.ValueIdx

/-! ## Folds of additions as natural-number sums -/

/-- Adding the words of `g n`, for `n` along a list, onto the word of `c` gives the word of `c` plus the sum of the `g n`. -/
theorem foldl_addi_ofNat {α : Type} (g : α → ℕ) (l : List α) (c : ℕ) :
    l.foldl (fun r n => IntOp.addi r (BitVec.ofNat 32 (g n))) (BitVec.ofNat 32 c)
      = BitVec.ofNat 32 (c + (l.map g).sum) := by
  induction l generalizing c with
  | nil => simp
  | cons a l ih =>
    simp only [List.foldl_cons, List.map_cons, List.sum_cons]
    have h : IntOp.addi (BitVec.ofNat 32 c) (BitVec.ofNat 32 (g a)) = BitVec.ofNat 32 (c + g a) := by
      unfold IntOp.addi; exact (BitVec.ofNat_add ..).symm
    rw [h, ih, Nat.add_assoc]

/-- A rank-1 index is its one coordinate. -/
def idx1Equiv (n : ℕ) : (⟨1, ![n]⟩ : Shape).Idx ≃ Fin n where
  toFun i := i 0
  invFun k := ix1 k
  left_inv i := (eq_ix1 i).symm
  right_inv _ := rfl

/-- A sum over the row-major positions of a rank-1 shape is the sum over the coordinate. -/
theorem sum_positions_rank1 {n : ℕ} (g : (⟨1, ![n]⟩ : Shape).Idx → ℕ) :
    ((List.finRange (⟨1, ![n]⟩ : Shape).numel).map fun m => g ((⟨1, ![n]⟩ : Shape).rowMajor.symm m)).sum
      = ∑ k : Fin n, g (ix1 k) := by
  rw [← Fin.sum_univ_def, Equiv.sum_comp (⟨1, ![n]⟩ : Shape).rowMajor.symm g, ← Equiv.sum_comp (idx1Equiv n).symm g]
  rfl

/-- Among the `k < n` exactly `n - c` satisfy `c ≤ k`. -/
theorem sum_indicator_ge (n c : ℕ) : (∑ k : Fin n, if c ≤ k.val then 1 else 0) = n - c := by
  rw [Fin.sum_univ_eq_sum_range (fun k => if c ≤ k then 1 else 0) n, Finset.sum_boole]
  have h : (Finset.range n).filter (fun k => c ≤ k) = Finset.Ico c n := by
    ext k
    simp only [Finset.mem_filter, Finset.mem_range, Finset.mem_Ico]
    omega
  rw [h, Nat.card_Ico]; rfl

/-! ## The prefix sum -/

/-- What the window at position `j` sees in its cell `i`: the operand's entry `j + i - 1023`, or the padding's zero. -/
def winCell (f : Fin 1024 → ℕ) (j : Fin 1024) (i : (⟨1, ![1024]⟩ : Shape).Idx) : ℕ :=
  if hk : 1023 ≤ j.val + (i 0).val then
    f ⟨j.val + (i 0).val - 1023, by have : (i 0).val < 1024 := (i 0).isLt; omega⟩
  else 0

/-- The window reduction that a prefix sum of length 1024 prints as, at position `j`, over words of natural numbers:
    the word of the sum, over the window's cells `k`, of the entry `j + k - 1023` where that is not padding. -/
theorem cumsum_apply (f : Fin 1024 → ℕ) (init : (⟨0, ![]⟩ : Shape).Idx → BitVec 32) (hinit : init ix0 = 0#32)
    (h : (⟨1, ![1024]⟩ : Shape).ReduceWindows (![1024] : Fin 1 → ℕ) ![1] ![1023] ![0] ⟨1, ![1024]⟩)
    (hu : 0 < (⟨0, ![]⟩ : Shape).numel) (j : Fin 1024) :
    Host.reduceWindow (s := ⟨1, ![1024]⟩) (t := ⟨1, ![1024]⟩) (u := ⟨0, ![]⟩) IntOp.addi ![1024] ![1] ![1023] ![0]
        (fun i => BitVec.ofNat 32 (f (i 0))) init h hu (ix1 j)
      = BitVec.ofNat 32 (∑ k : Fin 1024, winCell f j (ix1 k)) := by
  have hv : init (Shape.Idx.first hu) = BitVec.ofNat 32 0 := by
    rw [show Shape.Idx.first hu = ix0 from eq_ix0 _, hinit]
  unfold Host.reduceWindow
  simp only [hv]
  refine Eq.trans (List.foldl_ext _
    (fun r n => IntOp.addi r (BitVec.ofNat 32 (winCell f j ((⟨1, ![1024]⟩ : Shape).rowMajor.symm n)))) _
    (fun r n _ => ?_)) ?_
  · refine congrArg (IntOp.addi r) ?_
    let i := (⟨1, ![1024]⟩ : Shape).rowMajor.symm n
    have hw : (i 0).val < 1024 := (i 0).isLt
    by_cases hk : 1023 ≤ j.val + (i 0).val
    · rw [dif_pos (fun a => by
        obtain rfl : a = 0 := Subsingleton.elim _ _
        show 1023 ≤ j.val * 1 + (i 0).val ∧ j.val * 1 + (i 0).val - 1023 < 1024
        omega)]
      unfold winCell; rw [dif_pos hk]
      refine congrArg (fun q => BitVec.ofNat 32 (f q)) (Fin.ext ?_)
      show j.val * 1 + (i 0).val - 1023 = j.val + (i 0).val - 1023
      omega
    · rw [dif_neg (fun hall => hk (by
        have h0 : 1023 ≤ j.val * 1 + (i 0).val := (hall 0).1
        omega))]
      unfold winCell; rw [dif_neg hk]
  · rw [foldl_addi_ofNat (fun n => winCell f j ((⟨1, ![1024]⟩ : Shape).rowMajor.symm n)), Nat.zero_add,
      sum_positions_rank1 (winCell f j)]

/-- The all-ones vector has prefix sums `j + 1`. -/
theorem cumsum_ones (init : (⟨0, ![]⟩ : Shape).Idx → BitVec 32) (hinit : init ix0 = 0#32)
    (h : (⟨1, ![1024]⟩ : Shape).ReduceWindows (![1024] : Fin 1 → ℕ) ![1] ![1023] ![0] ⟨1, ![1024]⟩)
    (hu : 0 < (⟨0, ![]⟩ : Shape).numel) (j : Fin 1024) :
    Host.reduceWindow (s := ⟨1, ![1024]⟩) (t := ⟨1, ![1024]⟩) (u := ⟨0, ![]⟩) IntOp.addi ![1024] ![1] ![1023] ![0]
        (fun _ => 1#32) init h hu (ix1 j)
      = BitVec.ofNat 32 (j.val + 1) := by
  have := cumsum_apply (fun _ => 1) init hinit h hu j
  rw [show (fun i : (⟨1, ![1024]⟩ : Shape).Idx => BitVec.ofNat 32 ((fun _ : Fin 1024 => 1) (i 0))) = fun _ => 1#32 from rfl] at this
  rw [this]
  refine congrArg (BitVec.ofNat 32) ?_
  have hs : ∀ k : Fin 1024, winCell (fun _ => 1) j (ix1 k) = if 1023 - j.val ≤ k.val then 1 else 0 := by
    intro k
    unfold winCell
    by_cases hk : 1023 ≤ j.val + k.val
    · rw [dif_pos hk, if_pos (by omega)]
    · rw [dif_neg hk, if_neg (by omega)]
  rw [Finset.sum_congr rfl (fun k _ => hs k), sum_indicator_ge]
  have := j.isLt; omega

/-- The vector that is zero at position 0 and one elsewhere has prefix sums `j`. -/
theorem cumsum_tail_ones (init : (⟨0, ![]⟩ : Shape).Idx → BitVec 32) (hinit : init ix0 = 0#32)
    (h : (⟨1, ![1024]⟩ : Shape).ReduceWindows (![1024] : Fin 1 → ℕ) ![1] ![1023] ![0] ⟨1, ![1024]⟩)
    (hu : 0 < (⟨0, ![]⟩ : Shape).numel) (j : Fin 1024) :
    Host.reduceWindow (s := ⟨1, ![1024]⟩) (t := ⟨1, ![1024]⟩) (u := ⟨0, ![]⟩) IntOp.addi ![1024] ![1] ![1023] ![0]
        (fun i => BitVec.ofNat 32 (if (i 0).val = 0 then 0 else 1)) init h hu (ix1 j)
      = BitVec.ofNat 32 j.val := by
  have := cumsum_apply (fun i => if i.val = 0 then 0 else 1) init hinit h hu j
  rw [this]
  refine congrArg (BitVec.ofNat 32) ?_
  have hs : ∀ k : Fin 1024, winCell (fun i => if i.val = 0 then 0 else 1) j (ix1 k) = if 1024 - j.val ≤ k.val then 1 else 0 := by
    intro k
    unfold winCell
    by_cases hk : 1023 ≤ j.val + k.val
    · rw [dif_pos hk]
      show (if j.val + k.val - 1023 = 0 then 0 else 1) = _
      by_cases h0 : j.val + k.val - 1023 = 0
      · rw [if_pos h0, if_neg (by omega)]
      · rw [if_neg h0, if_pos (by omega)]
    · rw [dif_neg hk, if_neg (by omega)]
  rw [Finset.sum_congr rfl (fun k _ => hs k), sum_indicator_ge]
  have := j.isLt; omega

/-! ## The scatter-add and the histogram -/

section Fold

variable {s si u : Shape} {w : ℕ} (d : ScatterDims s si u) (idx : IVec si w)

/-- One update of the scatter-add: the update at row-major position `n` is added at the position it lands on, and
    dropped when it lands outside the operand. -/
def scatterStep (upd : u.Idx → BitVec 32) (r : s.Idx → BitVec 32) (n : Fin u.numel) : s.Idx → BitVec 32 :=
  match d.resultIdx? (u.rowMajor.symm n) idx with
  | some i => fun i' => if i' = i then IntOp.addi (r i) (upd (u.rowMajor.symm n)) else r i'
  | none => r

theorem scatter_eq_foldl (x : s.Idx → BitVec 32) (upd : u.Idx → BitVec 32) :
    Host.scatter d IntOp.addi x idx upd = (List.finRange u.numel).foldl (scatterStep d idx upd) x := rfl

/-- One update, over words of natural numbers: every position keeps its number, plus the update's where it lands. -/
theorem scatterStep_ofNat (g : u.Idx → ℕ) (c : s.Idx → ℕ) (n : Fin u.numel) :
    scatterStep d idx (fun j => BitVec.ofNat 32 (g j)) (fun i => BitVec.ofNat 32 (c i)) n
      = fun i' => BitVec.ofNat 32 (c i' + if d.resultIdx? (u.rowMajor.symm n) idx = some i' then g (u.rowMajor.symm n) else 0) := by
  unfold scatterStep
  split
  · rename_i i hres
    funext i'
    rw [hres]
    by_cases hi : i' = i
    · subst hi
      rw [if_pos rfl, if_pos rfl]
      unfold IntOp.addi; exact (BitVec.ofNat_add ..).symm
    · rw [if_neg hi, if_neg (fun h => hi (Option.some.inj h).symm), Nat.add_zero]
  · rename_i hres
    funext i'
    rw [hres, if_neg nofun, Nat.add_zero]

/-- The scatter-add over words of natural numbers, at a position: the word of the operand's number plus the sum of the
    updates that land there. -/
theorem scatter_addi_ofNat (c : s.Idx → ℕ) (g : u.Idx → ℕ) (i' : s.Idx) :
    Host.scatter d IntOp.addi (fun i => BitVec.ofNat 32 (c i)) idx (fun j => BitVec.ofNat 32 (g j)) i'
      = BitVec.ofNat 32 (c i' + ((List.finRange u.numel).map fun n =>
          if d.resultIdx? (u.rowMajor.symm n) idx = some i' then g (u.rowMajor.symm n) else 0).sum) := by
  rw [scatter_eq_foldl]
  generalize List.finRange u.numel = l
  induction l generalizing c with
  | nil => simp
  | cons a l ih =>
    rw [List.foldl_cons, scatterStep_ofNat, ih]
    simp only [List.map_cons, List.sum_cons, Nat.add_assoc]

end Fold

/-! ## A vector scattered into a vector -/

section Vec

/-- The dimension numbers of `x.at[idx].add(v)` for vectors: operand `[N]`, indices `[E, 1]`, updates `[E]`. -/
abbrev vecScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : ℕ} (wf : ScatterDims.WF ⟨1, ![N]⟩ ⟨2, ![E, 1]⟩ ⟨1, ![E]⟩ [] [0] [0] 1)

theorem vec_start (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vec_window (e : Fin E) : (vecScatterDims N E wf).window (ix1 e) 0 = 0 := by
  unfold ScatterDims.window
  rw [dif_neg (show ¬ (0 : Fin 1) ∈ (vecScatterDims N E wf).sKept by simp [ScatterDims.sKept, Shape.kept, List.mem_filter, List.mem_finRange])]

/-- Update `e` lands on position `n` exactly when its index, read as a signed integer, is `n`. -/
theorem vec_resultIdx? (idx : IVec ⟨2, ![E, 1]⟩ w) (e : Fin E) (n : Fin N) :
    (vecScatterDims N E wf).resultIdx? (ix1 e) idx = some (ix1 n) ↔ (idx (ix2 e (0 : Fin 1))).toInt = (n.val : ℤ) := by
  have h0 := vec_start wf idx e
  have w0 := vec_window wf e
  unfold ScatterDims.resultIdx?
  split
  · rename_i h
    rw [Option.some.injEq]
    constructor
    · intro hf
      have e0 := congrArg (fun f => (f 0).val) hf
      have b0 := h 0
      rw [h0, w0] at b0
      have e0' : ((vecScatterDims N E wf).start (ix1 e) idx 0 + ((vecScatterDims N E wf).window (ix1 e) 0 : ℤ)).toNat = n.val := e0
      rw [h0, w0] at e0'
      omega
    · intro hr
      funext a; refine Fin.ext ?_
      match a with
      | ⟨0, _⟩ =>
        show ((vecScatterDims N E wf).start (ix1 e) idx 0 + ((vecScatterDims N E wf).window (ix1 e) 0 : ℤ)).toNat = n.val
        rw [h0, w0]; omega
  · rename_i h
    constructor
    · intro hf; exact absurd hf (by simp)
    · intro hr
      exfalso; apply h
      intro a
      match a with
      | ⟨0, _⟩ =>
        show 0 ≤ (vecScatterDims N E wf).start (ix1 e) idx 0 + ((vecScatterDims N E wf).window (ix1 e) 0 : ℤ)
          ∧ (vecScatterDims N E wf).start (ix1 e) idx 0 + ((vecScatterDims N E wf).window (ix1 e) 0 : ℤ) < (N : ℤ)
        rw [h0, w0]; have := n.isLt; omega

/-- A vector of ones scatter-added into zeros: position `n` ends at the word of the number of updates whose index is `n`. -/
theorem vec_scatter_count (idx : IVec ⟨2, ![E, 1]⟩ w) (n : Fin N) :
    Host.scatter (vecScatterDims N E wf) IntOp.addi (fun _ => 0#32) idx (fun _ => 1#32) (ix1 n)
      = BitVec.ofNat 32 (∑ e : Fin E, if (idx (ix2 e (0 : Fin 1))).toInt = (n.val : ℤ) then 1 else 0) := by
  have := scatter_addi_ofNat (vecScatterDims N E wf) idx (fun _ => 0) (fun _ => 1) (ix1 n)
  rw [show (fun _ : (⟨1, ![N]⟩ : Shape).Idx => BitVec.ofNat 32 0) = fun _ => 0#32 from rfl,
    show (fun _ : (⟨1, ![E]⟩ : Shape).Idx => BitVec.ofNat 32 1) = fun _ => 1#32 from rfl] at this
  rw [this, Nat.zero_add,
    sum_positions_rank1 (fun j => if (vecScatterDims N E wf).resultIdx? j idx = some (ix1 n) then 1 else 0)]
  congr 1
  refine Finset.sum_congr rfl fun e _ => ?_
  simp only [vec_resultIdx? wf idx e n]

/-- The word of a natural number below `2 ^ 31` reads back, as a signed integer, as that number. -/
theorem toInt_ofNat_small (m : ℕ) (hm : m < 2147483648) : (BitVec.ofNat 32 m).toInt = (m : ℤ) := by
  have h1 : (BitVec.ofNat 32 m).toNat = m := by
    rw [BitVec.toNat_ofNat]; exact Nat.mod_eq_of_lt (by omega)
  rw [BitVec.toInt_eq_toNat_cond, h1, if_pos (by omega)]

/-- The histogram of the indices `1, …, 1024` over 1024 bins: zero in bin 0, one in every other bin. -/
theorem hist_of_shifted (wf : ScatterDims.WF ⟨1, ![1024]⟩ ⟨2, ![1024, 1]⟩ ⟨1, ![1024]⟩ [] [0] [0] 1)
    (idx : IVec ⟨2, ![1024, 1]⟩ 32)
    (hidx : ∀ e : Fin 1024, idx (ix2 e (0 : Fin 1)) = BitVec.ofNat 32 (e.val + 1)) (n : Fin 1024) :
    Host.scatter (vecScatterDims 1024 1024 wf) IntOp.addi (fun _ => 0#32) idx (fun _ => 1#32) (ix1 n)
      = BitVec.ofNat 32 (if n.val = 0 then 0 else 1) := by
  rw [vec_scatter_count]
  refine congrArg (BitVec.ofNat 32) ?_
  have hc : ∀ e : Fin 1024, ((idx (ix2 e (0 : Fin 1))).toInt = (n.val : ℤ)) ↔ (e.val + 1 = n.val) := by
    intro e
    rw [hidx, toInt_ofNat_small _ (by have := e.isLt; omega)]
    omega
  simp only [hc]
  by_cases h0 : n.val = 0
  · rw [if_pos h0]; exact Finset.sum_eq_zero (fun e _ => if_neg (by omega))
  · rw [if_neg h0, Finset.sum_eq_single (⟨n.val - 1, by have := n.isLt; omega⟩ : Fin 1024)]
    · rw [if_pos (by show n.val - 1 + 1 = n.val; omega)]
    · intro e _ hne
      exact if_neg (fun h => hne (Fin.ext (by show e.val = n.val - 1; omega)))
    · intro h; exact absurd (Finset.mem_univ _) h

end Vec

end Idealize.ShloMosaic.IntCount

end
-- ==== Proof.LibDegreeCount.lean ====
/-
  Counting by scatter-add: ones scattered into zeros, as 32-bit integers and then converted, or directly as real
  numbers.

  A scatter-add sends update `j` to the position `resultIdx? j idx` names, and drops it when that position is outside
  the operand.  With every update equal to one and the operand zero, a position ends at the number of updates landing
  on it.  The 32-bit integer form of the operation reaches that number as a word (no wrap-around as long as there are
  fewer than 2 ^ 31 updates), and its conversion to a float is, over the extended reals, that number; the float form
  of the operation is, over the extended reals, the sum of that many ones (a sum of ones over a finite set is the
  number of its elements).  So the two are one array.  Stated for any dimension numbers and any index array.
  Also: the f32 word of one denotes one.
-/
import Idealize.ShloMosaic.PureOps.Ideal
import Idealize.ShloMosaic.PureOps.Contract
import Idealize.ShloMosaic.Lib.ValueIdx
import proofs.«123112_j18691697672931_2_alg».proof.Proof.LibIntCumsumScatter

noncomputable section

open scoped BigOperators

namespace Idealize.ShloMosaic.DegreeCount

open Idealize.ShloMosaic Idealize.ShloMosaic.ValueIdx Idealize.ShloMosaic.IntCount

variable {s si u : Shape} {w : ℕ} (d : ScatterDims s si u) (idx : IVec si w)

/-- The number of updates that land on position `i`. -/
def hits (i : s.Idx) : ℕ := (Finset.univ.filter fun j : u.Idx => d.resultIdx? j idx = some i).card

/-- No position receives more updates than there are. -/
theorem hits_le (i : s.Idx) : hits d idx i ≤ u.numel := by
  unfold hits
  refine (Finset.card_filter_le _ _).trans ?_
  rw [Finset.card_univ, Fintype.card_congr u.rowMajor, Fintype.card_fin]

/-- Integer ones scatter-added into integer zeros: each position ends at the word of its number of updates. -/
theorem scatter_ones_int (i : s.Idx) :
    Host.scatter d IntOp.addi (fun _ => 0#32) idx (fun _ => 1#32) i = BitVec.ofNat 32 (hits d idx i) := by
  have h := scatter_addi_ofNat d idx (fun _ => 0) (fun _ => 1) i
  rw [show (fun _ : s.Idx => BitVec.ofNat 32 0) = fun _ => 0#32 from rfl,
    show (fun _ : u.Idx => BitVec.ofNat 32 1) = fun _ => 1#32 from rfl] at h
  rw [h, Nat.zero_add]
  refine congrArg (BitVec.ofNat 32) ?_
  rw [← Fin.sum_univ_def,
    Equiv.sum_comp u.rowMajor.symm (fun j : u.Idx => if d.resultIdx? j idx = some i then 1 else 0),
    Finset.sum_boole]
  rfl

/-- A sum of ones over a finite set is the number of its elements. -/
theorem sum_ones {ι : Type*} (S : Finset ι) : ∑ _j ∈ S, (1 : EReal) = ((S.card : ℝ) : EReal) := by
  classical
  induction S using Finset.induction_on with
  | empty => simp
  | insert a S ha ih =>
    rw [Finset.sum_insert ha, ih, Finset.card_insert_of_notMem ha, ← EReal.coe_one, ← EReal.coe_add]
    exact congrArg _ (by push_cast; ring)

/-- Real ones scatter-added into real zeros: each position ends at its number of updates. -/
theorem scatter_ones_real (i : s.Idx) :
    Host.scatterAdd (F := Ideal) (φ := .f32) d (fun _ => (0 : EReal)) idx (fun _ => (1 : EReal)) i
      = ((hits d idx i : ℝ) : EReal) := by
  show (0 : EReal) + ∑ j ∈ Finset.univ.filter (fun j : u.Idx => d.resultIdx? j idx = some i), (1 : EReal) = _
  rw [zero_add, sum_ones]
  rfl

/-- Counting in 32-bit integers and converting is counting in the reals, when there are fewer than 2 ^ 31 updates. -/
theorem sitofp_scatter_ones (hu : u.numel < 2147483648) :
    (sitofp .f32 (Host.scatter d IntOp.addi (fun _ => 0#32) idx (fun _ => 1#32)) : FVec Ideal s .f32)
      = Host.scatterAdd (F := Ideal) (φ := .f32) d (fun _ => (0 : EReal)) idx (fun _ => (1 : EReal)) := by
  funext i
  rw [scatter_ones_real]
  show (((Host.scatter d IntOp.addi (fun _ => 0#32) idx (fun _ => 1#32) i).toInt : ℝ) : EReal) = _
  rw [scatter_ones_int, toInt_ofNat_small _ (lt_of_le_of_lt (hits_le d idx i) hu)]
  norm_cast

/-- The f32 word `0x3F800000` denotes one. -/
theorem ofBits_f32_one : Ideal.ofBits .f32 0x3F800000#32 = (1 : EReal) := by
  simp [Ideal.ofBits, Ideal.ieee]
  rw [← EReal.coe_mul, ← EReal.coe_one]
  exact congrArg _ (by norm_num)

end Idealize.ShloMosaic.DegreeCount

end
-- ==== Proof.LibColumnCast.lean ====
/-
  A vector kept as a column, read at an index given by coordinates: an [a] array cast to [a, 1] reads, at (r, u), the
  entry r, whatever the unit coordinate u. (The keepdims form of a per-row reduction's result; the row counterpart
  [a] → [1, a] is the library's, and this is stated in the same style.)
-/
import Idealize.ShloMosaic.Lib.Pipeline.Value
import Idealize.ShloMosaic.Lib.ValueIdx

namespace Cert.ColumnCast

open Idealize.ShloMosaic Idealize.ShloMosaic.ValueIdx

variable {α : Type}

/-- An `[a]` array cast to `[a, 1]` reads, at `(r, u)`, the operand at `r`: the two indices have the same row-major
    position, `r · 1 + 0`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.ColumnCast
-- ==== Proof.Bridge.lean ====
/-
  The idealized kernel program's result term is the reference's result term, as functions of the argument arrays.

  Both results are the concatenation of a word part and a document part.  The reference computes each linear layer as a
  product with the transposed weight matrix plus the broadcast bias — entry `(r, c)` is `∑ k, x (r, k) * W (c, k) + b c`,
  the kernel's layer —, applies the same gather and scatter-add of the same arrays, and divides by the degree (at least
  one), adds, and cuts off at zero entry by entry exactly as the epilogues do.  The one difference is the degree: the
  reference scatter-adds float ones, the kernel counts in 32-bit integers and converts; over the extended reals both are
  the number of edges at the target (there are 600000 edges, below 2 ^ 31).
-/
import proofs.«123112_j18691697672931_2_alg».proof.Proof.KernelValue
import proofs.«123112_j18691697672931_2_alg».proof.Proof.Gen.ReferenceIdeal.Read
import proofs.«123112_j18691697672931_2_alg».proof.Proof.LibDegreeCount
import proofs.«123112_j18691697672931_2_alg».proof.Proof.LibColumnCast
import Idealize.ShloMosaic.Lib.ValueLayout

set_option maxRecDepth 16384

noncomputable section

open Idealize.ShloMosaic Idealize.ShloMosaic.ValueIdx

namespace Cert.Bridge

open Cert.Rows Cert.KernelIdeal.HostFold
open Cert.ReferenceIdeal.Read

abbrev Nodes := FVec Ideal Cert.KernelIdeal.S50000x128 .f32
abbrev Weights := FVec Ideal Cert.KernelIdeal.S128x128 .f32
abbrev Bias := FVec Ideal Cert.KernelIdeal.S128 .f32
abbrev Edges := IVec Cert.KernelIdeal.S600000 32

/-! ## The linear layers -/

/-- The reference's layer — product with the transposed weights, plus the bias broadcast to every row — is the
    kernel's. -/
theorem layer_ref (x : Nodes) (W : Weights) (b : Bias) : val_main_v4 (F := Ideal) x W b = affineRows x W (biasRow b) := by
  funext i
  obtain ⟨p, q, rfl⟩ : ∃ (p : Fin 50000) (q : Fin 128), i = ix2 p q := ⟨i 0, i 1, eq_ix2 i⟩
  have hl : ∀ k : Fin 128, lidx_main_v1 (ix2 p q) k = ix2 p k := fun k =>
    funext fun a => Fin.ext (by match a with | ⟨0, _⟩ => rfl | ⟨1, _⟩ => rfl)
  have hr : ∀ k : Fin 128, idx_main_v0 (ridx_main_v1 (ix2 p q) k) = ix2 q k := fun k =>
    funext fun a => Fin.ext (by match a with | ⟨0, _⟩ => rfl | ⟨1, _⟩ => rfl)
  have hb : idx_main_v2 (idx_main_v3 (ix2 p q)) = ix1 q :=
    funext fun a => Fin.ext (by match a with | ⟨0, _⟩ => rfl)
  rw [val_main_v4_apply, val_main_v1_apply, val_main_v3_apply, val_main_v2_apply]
  simp only [val_main_v0_apply, hl, hr, hb]
  refine Eq.trans ?_ (congrArg (fun z => (∑ k : Fin 128, x (ix2 p k) * W (ix2 q k)) + z)
    (shapeCast_a_1a_apply b Cert.KernelIdeal.Facts₀.shapeCasts_S128_S1x128 (0 : Fin 1) q).symm)
  rfl

/-! ## The neighbour sums -/

theorem sum_ref (x : Nodes) (W : Weights) (b : Bias) (src dst : Edges) :
    gatherSum (val_main_v4 (F := Ideal) x W b) src dst = val_main_v24 (F := Ideal) x W b src dst := rfl

/-! ## The degrees -/

/-- The kernel's degree column, at row `p`, is the reference's float count at `p`. -/
theorem degree_ref (dst : Edges) (p : Fin 50000) :
    degreeColumn dst (ix2 p (0 : Fin 1)) = val_main_v28 (F := Ideal) dst (ix1 p) := by
  unfold degreeColumn
  rw [Cert.ColumnCast.shapeCast_a_a1_apply]
  have h := Idealize.ShloMosaic.DegreeCount.sitofp_scatter_ones
    Cert.KernelIdeal.scatter_S50000_S600000x1_S600000_n_0_0_1
    (broadcastInDim Cert.KernelIdeal.S600000x1 ![0] Cert.KernelIdeal.Facts₀.bcast_S600000_S600000x1_0 dst) (by decide)
  refine (congrFun h (ix1 p)).trans ?_
  unfold val_main_v28
  have h0 : (val_main_v26 (F := Ideal)) = fun _ => (0 : EReal) := by
    funext j; rw [val_main_v26_apply, val_main_cst_2_apply]; exact Ideal.ofBits_zero_f32
  have h1 : (val_main_v25 (F := Ideal)) = fun _ => (1 : EReal) := by
    funext j; rw [val_main_v25_apply, val_main_cst_1_apply]; exact Idealize.ShloMosaic.DegreeCount.ofBits_f32_one
  rw [h0, h1]
  rfl

/-! ## The two parts -/

theorem words_ref (x0 x1 : Nodes) (x2 : Weights) (x3 : Bias) (x6 : Weights) (x7 : Bias) (x8 x9 x12 x13 : Edges) :
    meanTwo (gatherSum (affineRows x0 x2 (biasRow x3)) x8 x9) (degreeColumn x9)
        (gatherSum (affineRows x1 x6 (biasRow x7)) x12 x13) (degreeColumn x13)
      = val_main_v73 (F := Ideal) x0 x1 x2 x3 x6 x7 x8 x9 x12 x13 := by
  rw [← layer_ref x0 x2 x3, ← layer_ref x1 x6 x7]
  funext i
  obtain ⟨p, q, rfl⟩ : ∃ (p : Fin 50000) (q : Fin 128), i = ix2 p q := ⟨i 0, i 1, eq_ix2 i⟩
  show max (Ideal.div (val_main_v24 (F := Ideal) x0 x2 x3 x8 x9 (ix2 p q)) (max (degreeColumn x9 (ix2 p (0 : Fin 1))) oneE)
      + Ideal.div (val_main_v43 (F := Ideal) x1 x6 x7 x12 x13 (ix2 p q)) (max (degreeColumn x13 (ix2 p (0 : Fin 1))) oneE)) zeroE = _
  have hd : idx_main_v31 (idx_main_v32 (ix2 p q)) = ix1 p :=
    funext fun a => Fin.ext (by match a with | ⟨0, _⟩ => rfl)
  have hd' : idx_main_v50 (idx_main_v51 (ix2 p q)) = ix1 p :=
    funext fun a => Fin.ext (by match a with | ⟨0, _⟩ => rfl)
  rw [degree_ref, degree_ref]
  simp only [val_main_v73_apply, val_main_v53_apply, val_main_v33_apply, val_main_v52_apply, val_main_v32_apply, val_main_v51_apply,
    val_main_v31_apply, val_main_v50_apply, val_main_v30_apply, val_main_v49_apply, val_main_v29_apply, val_main_v48_apply,
    val_main_cst_3_apply, val_main_cst_9_apply, val_main_call0_v0_apply, val_main_call0_cst_apply, hd, hd']
  rfl

theorem documents_ref (x0 : Nodes) (x4 : Weights) (x5 : Bias) (x10 x11 : Edges) :
    meanOne (gatherSum (affineRows x0 x4 (biasRow x5)) x10 x11) (degreeColumn x11)
      = val_main_v74 (F := Ideal) x0 x4 x5 x10 x11 := by
  rw [← layer_ref x0 x4 x5]
  funext i
  obtain ⟨p, q, rfl⟩ : ∃ (p : Fin 50000) (q : Fin 128), i = ix2 p q := ⟨i 0, i 1, eq_ix2 i⟩
  show max (Ideal.div (val_main_v63 (F := Ideal) x0 x4 x5 x10 x11 (ix2 p q)) (max (degreeColumn x11 (ix2 p (0 : Fin 1))) oneE)) zeroE = _
  have hd : idx_main_v70 (idx_main_v71 (ix2 p q)) = ix1 p :=
    funext fun a => Fin.ext (by match a with | ⟨0, _⟩ => rfl)
  rw [degree_ref]
  simp only [val_main_v74_apply, val_main_v72_apply, val_main_v71_apply, val_main_v70_apply, val_main_v69_apply, val_main_v68_apply,
    val_main_cst_15_apply, val_main_call1_v0_apply, val_main_call1_cst_apply, hd]
  rfl

/-- The kernel program's result term is the reference's. -/
theorem value_ref (x0 x1 : Nodes) (x2 : Weights) (x3 : Bias) (x4 : Weights) (x5 : Bias) (x6 : Weights) (x7 : Bias)
    (x8 x9 x10 x11 x12 x13 : Edges) :
    value x0 x1 x2 x3 x4 x5 x6 x7 x8 x9 x10 x11 x12 x13
      = val_main_v75 (F := Ideal) x0 x1 x2 x3 x4 x5 x6 x7 x8 x9 x10 x11 x12 x13 := by
  unfold value val_main_v75
  rw [words_ref, documents_ref]

end Cert.Bridge

end
-- ==== Proof.lean ====
/-
  The certificate of a heterogeneous graph-convolution layer with mean aggregation: a kernel program of four
  grid-launched kernels against a plain array reference.

  Both programs compute, for three relations, a linear layer of the source nodes' features, gather the layer's rows
  along the edges, scatter-add them at the edges' targets, divide each target's sum by its degree (at least one), add
  the two relations that end in word nodes, cut off at zero, and concatenate the word and the document results.
  The kernel program computes the linear layers and the divide-add-cut-off epilogues in kernels over blocks of 10000
  rows, and counts the degrees in 32-bit integers; the reference does everything with whole-array operations and counts
  in floats.  Over the extended reals the two results are the same term of the argument arrays:
  * a linear layer and an epilogue compute row `r` of their result from row `r` of their row-indexed operands, so what the
    grid's five points write back are the row blocks of the layer or epilogue applied to the whole arrays, and the
    blocks tile the rows (Region0 … Region3 over Rows);
  * the kernel program's fold through its operations and launches gives its result array as one term of the arguments
    (KernelRun, KernelValue);
  * that term is the reference's: entry by entry the same sums, products, quotients and maxima of the same gathers and
    scatter-adds, and an integer count of fewer than 2 ^ 31 edges converted to a float is the float count (Bridge,
    LibDegreeCount).
  No operand needs to be finite for any of this: no law beyond reading the operations entry by entry is used.
  The three frames are the generated ones (the reference's is its generated run with the result dropped), and the
  idealization rewrote nothing.
-/
import proofs.«123112_j18691697672931_2_alg».proof.Defs
import proofs.«123112_j18691697672931_2_alg».proof.Proof.Gen.Kernel
import proofs.«123112_j18691697672931_2_alg».proof.Proof.Gen.Kernel.Skeleton
import proofs.«123112_j18691697672931_2_alg».proof.Proof.Gen.Kernel.Launch
import proofs.«123112_j18691697672931_2_alg».proof.Proof.Gen.Kernel.Points
import proofs.«123112_j18691697672931_2_alg».proof.Proof.Gen.Kernel.Frame
import proofs.«123112_j18691697672931_2_alg».proof.Proof.Gen.KernelIdeal
import proofs.«123112_j18691697672931_2_alg».proof.Proof.Gen.KernelIdeal.Skeleton
import proofs.«123112_j18691697672931_2_alg».proof.Proof.Gen.KernelIdeal.Launch
import proofs.«123112_j18691697672931_2_alg».proof.Proof.Gen.KernelIdeal.Points
import proofs.«123112_j18691697672931_2_alg».proof.Proof.Gen.KernelIdeal.Frame
import proofs.«123112_j18691697672931_2_alg».proof.Proof.Gen.ReferenceIdeal
import proofs.«123112_j18691697672931_2_alg».proof.Proof.Gen.ReferenceIdeal.Run
import proofs.«123112_j18691697672931_2_alg».proof.Proof.Gen.ReferenceIdeal.Read
import proofs.«123112_j18691697672931_2_alg».proof.Proof.Gen.Pre_finite_inputs
import proofs.«123112_j18691697672931_2_alg».proof.Proof.KernelRun
import proofs.«123112_j18691697672931_2_alg».proof.Proof.KernelValue
import proofs.«123112_j18691697672931_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result array at one term of the
    arguments: the kernel program's fold read to that term, the reference's run at its own term, and the two terms
    equal. -/
theorem algebraic : Cert.algebraic_KernelIdeal_ReferenceIdeal := by
  intro m ρ m' ρ' _ hagree
  refine ⟨fun c => Cert.KernelIdeal.HostFold.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.HostFold.result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v75_eq, h0, h1, h2, h3, h4, h5, h6, h7, h8, h9, h10, h11, h12, h13]
    exact (Cert.Bridge.value_ref _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
